-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) (main_arg1 : FVec F S65536x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  main_v8
-- ==== Kernel.lean ====
abbrev S65536x512 : Shape := ⟨2, ![65536, 512]⟩
abbrev S2x5x512 : Shape := ⟨3, ![2, 5, 512]⟩
abbrev S4096x512 : Shape := ⟨2, ![4096, 512]⟩
abbrev S1x5x512 : Shape := ⟨3, ![1, 5, 512]⟩
abbrev S5x512 : Shape := ⟨2, ![5, 512]⟩
abbrev S1x512 : Shape := ⟨2, ![1, 512]⟩
abbrev S1024x512 : Shape := ⟨2, ![1024, 512]⟩
abbrev S512 : Shape := ⟨1, ![512]⟩
abbrev S_ : Shape := ⟨0, ![]⟩

abbrev nBuf : Space → Nat
  | .hbm => 71
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S2x5x512, .f32⟩
  | .hbm, ⟨3, _⟩ => ⟨S_, .f32⟩
  | .hbm, ⟨4, _⟩ => ⟨S5x512, .f32⟩
  | .hbm, ⟨5, _⟩ => ⟨S1x512, .f32⟩
  | .hbm, ⟨6, _⟩ => ⟨S512, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512, .f32⟩
  | .hbm, ⟨69, _⟩ => ⟨S_, .f32⟩
  | .hbm, ⟨70, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | .local _ .vmem, ⟨4, _⟩ => ⟨S1x5x512, .f32⟩
  | .local _ .vmem, ⟨5, _⟩ => ⟨S1x5x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_v43 : Ref sig .tc := ⟨.hbm, 59, rfl⟩
abbrev main_cst_13 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_14 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_15 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_mult1 : BitVec 32 :=
  let c0_i32_5 : BitVec 32 := 0#32
  let c1024_i32 : BitVec 32 := 1024#32
  let v8 : BitVec 32 := Scalar.muli c0_i32_5 c1024_i32
  v8
def k0_off1 (c0_i32_5 : BitVec 32) : Fin 2 → Nat :=
  let c1024_i32 : BitVec 32 := 1024#32
  let v8 : BitVec 32 := Scalar.muli c0_i32_5 c1024_i32
  let v9 : BitVec 32 := v8
  let v10 : Index := Scalar.indexCast v9
  let c0 : Index := 0#32
  ![v10.toNat, 0]
def k0_mult2 : BitVec 32 :=
  let c1_i32 : BitVec 32 := 1#32
  let c1024_i32_12 : BitVec 32 := 1024#32
  let v32 : BitVec 32 := Scalar.muli c1_i32 c1024_i32_12
  v32
def k0_mult3 : BitVec 32 :=
  let c2_i32 : BitVec 32 := 2#32
  let c1024_i32_20 : BitVec 32 := 1024#32
  let v56 : BitVec 32 := Scalar.muli c2_i32 c1024_i32_20
  v56
def k0_mult4 : BitVec 32 :=
  let c3_i32 : BitVec 32 := 3#32
  let c1024_i32_28 : BitVec 32 := 1024#32
  let v80 : BitVec 32 := Scalar.muli c3_i32 c1024_i32_28
  v80
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x5x512_S1x5x512_0_0_0 : ∀ a, (![0, 0, 0] : Fin 3 → Nat) a + S1x5x512.size a ≤ S1x5x512.size a
  h_S1x5x512 : 0 < S1x5x512.numel
  shapeCasts_S1x5x512_S5x512 : S1x5x512.ShapeCasts S5x512
  shapeCasts_S5x512_S1x5x512 : S5x512.ShapeCasts S1x5x512
  h_S1024x512 : 0 < S1024x512.numel
  reduces_S1024x512_S512 : S1024x512.Reduces [0] S512
  shapeCasts_S512_S1x512 : S512.ShapeCasts S1x512
  concatenates_S1x512_S1x512_S1x512_S1x512_S1x512_S5x512_d0 : Shape.Concatenates [S1x512, S1x512, S1x512, S1x512, S1x512] S5x512 0
  reducesTo_S2x5x512_S5x512_d0 : S2x5x512.ReducesTo [0] S5x512
  h_S_ : 0 < S_.numel
  slices_S5x512_S1x512_0_0 : S5x512.Slices ![0, 0] S1x512
  shapeCasts_S1x512_S512 : S1x512.ShapeCasts S512
  slices_S5x512_S1x512_1_0 : S5x512.Slices ![1, 0] S1x512
  slices_S5x512_S1x512_2_0 : S5x512.Slices ![2, 0] S1x512
  slices_S5x512_S1x512_3_0 : S5x512.Slices ![3, 0] S1x512
  slices_S5x512_S1x512_4_0 : S5x512.Slices ![4, 0] S1x512
  bcast_S_S512 : S_.BroadcastsInDim S512 (![] : Fin 0 → Fin S512.rank)
  reducesTo_S512_S_d0 : S512.ReducesTo [0] S_
  hrank0 : 0 < grid0.rank
  k0_mult1_dvd : 1024 ∣ k0_mult1.toNat
  k0_off1_inb : ∀ (r : Fin 4), ∀ a, (k0_off1 (BitVec.ofNat 32 r.val)) a + S1024x512.size a ≤ S4096x512.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S65536x512.size a
  hwx0_1 : ∀ i : grid0.Coords, EltTy.bits .f32 = 32 ∨ (Rect.block (s := S65536x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x512.size a ≤ S2x5x512.size a
  hwx0_2 : ∀ i : grid0.Coords, EltTy.bits .f32 = 32 ∨ (Rect.block (s := S2x5x512) S1x5x512.size (cc0_transform_2 i) (hinb0_2 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S_ : Shape := ⟨0, ![]⟩
abbrev S512 : Shape := ⟨1, ![512]⟩
abbrev S1x512 : Shape := ⟨2, ![1, 512]⟩

abbrev nBuf : Space → Nat
  | .hbm => 90
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S65536x512, .f32⟩
  | .hbm, ⟨9, _⟩ => ⟨S65536x512, .f32⟩
  | .hbm, ⟨10, _⟩ => ⟨S_, .i32⟩
  | .hbm, ⟨11, _⟩ => ⟨S_, .f32⟩
  | .hbm, ⟨12, _⟩ => ⟨S512, .f32⟩
  | .hbm, ⟨13, _⟩ => ⟨S1x512, .f32⟩
  | .hbm, ⟨14, _⟩ => ⟨S_, .f32⟩
  | .hbm, ⟨15, _⟩ => ⟨S1x512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S1x512, .f32⟩
  | .hbm, ⟨38, _⟩ => ⟨S65536x512, .f32⟩
  | .hbm, ⟨39, _⟩ => ⟨S65536x512, .f32⟩
  | .hbm, ⟨40, _⟩ => ⟨S_, .f32⟩
  | .hbm, ⟨41, _⟩ => ⟨S512, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S1x512, .f32⟩
  | .hbm, ⟨46, _⟩ => ⟨S65536x512, .f32⟩
  | .hbm, ⟨47, _⟩ => ⟨S65536x512, .f32⟩
  | .hbm, ⟨48, _⟩ => ⟨S_, .i32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S65536x512, .f32⟩
  | .hbm, ⟨56, _⟩ => ⟨S65536x512, .f32⟩
  | .hbm, ⟨57, _⟩ => ⟨S65536x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S512, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S1x512, .f32⟩
  | .hbm, ⟨76, _⟩ => ⟨S65536x512, .f32⟩
  | .hbm, ⟨77, _⟩ => ⟨S65536x512, .f32⟩
  | .hbm, ⟨78, _⟩ => ⟨S65536x512, .f32⟩
  | .hbm, ⟨79, _⟩ => ⟨S_, .f32⟩
  | .hbm, ⟨80, _⟩ => ⟨S512, .f32⟩
  | .hbm, ⟨81, _⟩ => ⟨S_, .f32⟩
  | .hbm, ⟨82, _⟩ => ⟨S512, .f32⟩
  | .hbm, ⟨83, _⟩ => ⟨S512, .f32⟩
  | .hbm, ⟨84, _⟩ => ⟨S_, .f32⟩
  | .hbm, ⟨85, _⟩ => ⟨S512, .f32⟩
  | .hbm, ⟨86, _⟩ => ⟨S512, .f32⟩
  | .hbm, ⟨87, _⟩ => ⟨S512, .f32⟩
  | .hbm, ⟨88, _⟩ => ⟨S_, .f32⟩
  | .hbm, ⟨89, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_cst_0 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_cst_1 : Ref sig .tc := ⟨.hbm, 21, rfl⟩
abbrev main_call0_call0_v8 : Ref sig .tc := ⟨.hbm, 22, rfl⟩
abbrev main_call0_call0_cst_2 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_cst_3 : Ref sig .tc := ⟨.hbm, 27, rfl⟩
abbrev main_call0_call0_v12 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_2 : Ref sig .tc := ⟨.hbm, 40, rfl⟩
abbrev main_v12 : Ref sig .tc := ⟨.hbm, 41, rfl⟩
abbrev main_cst_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_call1_call0_cst : Ref sig .tc := ⟨.hbm, 49, rfl⟩
abbrev main_call1_call0_v0 : Ref sig .tc := ⟨.hbm, 50, rfl⟩
abbrev main_call1_call0_v1 : Ref sig .tc := ⟨.hbm, 51, rfl⟩
abbrev main_call1_call0_cst_0 : Ref sig .tc := ⟨.hbm, 52, rfl⟩
abbrev main_call1_call0_v2 : Ref sig .tc := ⟨.hbm, 53, rfl⟩
abbrev main_call1_call0_v3 : Ref sig .tc := ⟨.hbm, 54, rfl⟩
abbrev main_call1_call0_v4 : Ref sig .tc := ⟨.hbm, 55, rfl⟩
abbrev main_call1_call0_v5 : Ref sig .tc := ⟨.hbm, 56, rfl⟩
abbrev main_call1_call0_v6 : Ref sig .tc := ⟨.hbm, 57, rfl⟩
abbrev main_call1_call0_v7 : Ref sig .tc := ⟨.hbm, 58, rfl⟩
abbrev main_call1_call0_cst_1 : Ref sig .tc := ⟨.hbm, 59, rfl⟩
abbrev main_call1_call0_v8 : Ref sig .tc := ⟨.hbm, 60, rfl⟩
abbrev main_call1_call0_cst_2 : Ref sig .tc := ⟨.hbm, 61, rfl⟩
abbrev main_call1_call0_v9 : Ref sig .tc := ⟨.hbm, 62, rfl⟩
abbrev main_call1_call0_v10 : Ref sig .tc := ⟨.hbm, 63, rfl⟩
abbrev main_call1_call0_v11 : Ref sig .tc := ⟨.hbm, 64, rfl⟩
abbrev main_call1_call0_cst_3 : Ref sig .tc := ⟨.hbm, 65, rfl⟩
abbrev main_call1_call0_v12 : Ref sig .tc := ⟨.hbm, 66, rfl⟩
abbrev main_call1_call0_cst_4 : Ref sig .tc := ⟨.hbm, 67, rfl⟩
abbrev main_call1_call0_call0_v0 : Ref sig .tc := ⟨.hbm, 68, rfl⟩
abbrev main_call1_call0_call0_v1 : Ref sig .tc := ⟨.hbm, 69, rfl⟩
abbrev main_call1_v0 : Ref sig .tc := ⟨.hbm, 70, rfl⟩
abbrev main_v18 : Ref sig .tc := ⟨.hbm, 71, rfl⟩
abbrev main_cst_5 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_cst_6 : Ref sig .tc := ⟨.hbm, 79, rfl⟩
abbrev main_v25 : Ref sig .tc := ⟨.hbm, 80, rfl⟩
abbrev main_cst_7 : Ref sig .tc := ⟨.hbm, 81, rfl⟩
abbrev main_v26 : Ref sig .tc := ⟨.hbm, 82, rfl⟩
abbrev main_v27 : Ref sig .tc := ⟨.hbm, 83, rfl⟩
abbrev main_cst_8 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst_9 : Ref sig .tc := ⟨.hbm, 88, rfl⟩
abbrev main_v31 : Ref sig .tc := ⟨.hbm, 89, rfl⟩

abbrev nD : Nat := 1
abbrev τ : Topo := Topo.v7x

variable {F : FTy → Type} [FloatOps F]

class Facts₀ : Prop where
  reducesTo_S65536x512_S512_d0 : S65536x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S1x512 : S_.BroadcastsInDim S1x512 (![] : Fin 0 → Fin S1x512.rank)
  reducesTo_S512_S_d0 : S512.ReducesTo [0] S_

variable [Facts₀]

class Facts : Prop extends Facts₀ where

variable [Facts]
-- ==== Proof.BRuns.lean ====
/-
  The frame of the statistics kernel, first part: what the frame run and the body's run are stated over.

  @main is one pipelined region followed by 68 host operations. The region's grid has 2 × 8 points; point
  (p, j) stages block p·8 + j (4096 rows) of each input and block p of the [2, 5, 512] output, whose staging
  buffer is kept across the eight points of a half and written back after the last one. Here: the buffers'
  contents when the region is entered (nothing runs before it), @main as "the region, then the later lines",
  the three side conditions the later lines owe (they touch only unscoped buffers, allocate nothing, and write
  no array of the pipeline), each input's block at a point, and the body's one branch condition (the reset of
  the accumulator at the first point of a half), decided over the grid.
-/
import proofs.«104294_j30288109372144_2_alg».proof.Proof.Gen.Kernel.Launch
import proofs.«104294_j30288109372144_2_alg».proof.Proof.Gen.Kernel.Skeleton
import proofs.«104294_j30288109372144_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents (no host line precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The later lines allocate nothing. -/
theorem tail_fresh : (hostOps1 : List (HloOp τ sig (Elt F))).Forall fun op => op.fresh = ∅ := by
  simp only [List.Forall]; repeat' constructor

/-- The later lines write no array of the pipeline: each writes its own result buffer only. -/
theorem tail_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes,
    StableHlo.reshape_writes, Finset.mem_singleton]
  repeat' apply And.intro
  all_goals (intro w; fin_cases w <;> exact StableHlo.devRef_ne_of_ne (by decide))

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's current staging buffer holds its block at every point (both inputs are fetched at every point). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one `scf.if`: the second grid coordinate is zero. -/
abbrev cond0_0 (i : grid0.Coords) : Prop := (Scalar.cmpi .ne (Scalar.extui (Scalar.cmpi .eq (BitVec.ofNat 32 (i 1).val) 0#32)) 0#32) = 1#1
/-- It holds at the first point of each half. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs the body is called with -/

/-- One staging buffer of the output window, through which its contents are stated. -/
abbrev VO0_2 : View sig .tc .vmem S1x5x512 .f32 := (Memref.whole cc0_stg2_0 : Memref sig .tc .vmem S1x5x512 .f32).view
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5x512 .f32 := win0_2.stage (cfg0.slots t 2)
abbrev hs0_2 (t : Fin cfg0.N) : (ms0_2 t).IsWhole := hstage0_2 ((cfg0.slots t 2).cast nbuf0_2)

end Cert.Kernel.Hand

end
-- ==== Proof.BRunA.lean ====
/-
  The body of the statistics kernel run at a point where the accumulator is reset (the first point of a half):
  on whole staging buffers — the two inputs at their blocks, the output at anything — the body runs to its end,
  leaves the inputs as they were and the output buffer written by two whole-block stores, the zero block and
  then the five partial column sums of the point's 4096 rows added to it. The stores found by the run are the
  witness; what they hold is read back later.
-/
import proofs.«104294_j30288109372144_2_alg».proof.Proof.BRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref at a reset point, with the run. -/
noncomputable def kernelRun0_A (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : cond0_0 i)
    (x0 : Vec F S4096x512 .f32) (x1 : Vec F S4096x512 .f32) :
    { L2 : List (View.Piece (Elt F) S1x5x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.BRunB.lean ====
/-
  The body of the statistics kernel run at a point where the accumulator is kept (every point of a half but
  the first): on whole staging buffers — the two inputs at their blocks, the output at what the point before
  left — the body runs to its end, leaves the inputs as they were and the output buffer written by one
  whole-block store: the five partial column sums of the point's 4096 rows added to what it held.
-/
import proofs.«104294_j30288109372144_2_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The piece the body's store leaves in the output's staging memref at a keeping point, with the run. -/
noncomputable def kernelRun0_B (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : ¬cond0_0 i)
    (x0 : Vec F S4096x512 .f32) (x1 : Vec F S4096x512 .f32) (xo2 : Vec F S1x5x512 .f32) :
    { L2 : List (View.Piece (Elt F) S1x5x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.BFrame.lean ====
/-
  The frame of the statistics kernel, last part. What the output's staging buffer holds after the body at each
  point, by recursion on the point: at the first point of a half the zero block plus that point's five partial
  column sums, at a later point what the point before left plus this point's partial sums (the buffer is not
  written back in between: the output's block index depends on the half only, and it is flushed after the last
  point of a half). With that as the proof data — the inputs' buffers at their blocks, the class's invariant,
  nothing owed, full shares — the body obligation is the two runs, chosen by the point's position in its half;
  the frame run is the library's launch theorem for a region followed by host lines; and the frame claim reads
  the two argument arrays off the run's post.
-/
import proofs.«104294_j30288109372144_2_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two stores of a reset point tile the output block. -/
theorem cover0_A_2 (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : cond0_0 i)
    (x0 : Vec F S4096x512 .f32) (x1 : Vec F S4096x512 .f32) (y : S1x5x512.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x5x512.size (by sl_kernel_rfl) y

/-- What a reset point leaves in the output's staging buffer. -/
def out0_A_2 (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : cond0_0 i)
    (x0 : Vec F S4096x512 .f32) (x1 : Vec F S4096x512 .f32) : Vec F S1x5x512 .f32 :=
  VO0_2.read (Elt F) (VO0_2.writes (Elt F) VO0_2.junk (kernelRun0_A c i arg2 harg2 arg3 harg3 arg4 harg4 hc0 x0 x1).1)

/-- The one store of a keeping point covers the output block. -/
theorem cover0_B_2 (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : ¬cond0_0 i)
    (x0 : Vec F S4096x512 .f32) (x1 : Vec F S4096x512 .f32) (xo2 : Vec F S1x5x512 .f32) (y : S1x5x512.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x5x512.size (by sl_kernel_rfl) y

/-- What a keeping point leaves in the output's staging buffer. -/
def out0_B_2 (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : ¬cond0_0 i)
    (x0 : Vec F S4096x512 .f32) (x1 : Vec F S4096x512 .f32) (xo2 : Vec F S1x5x512 .f32) : Vec F S1x5x512 .f32 :=
  VO0_2.read (Elt F) (VO0_2.writes (Elt F) VO0_2.junk (kernelRun0_B c i arg2 harg2 arg3 harg3 arg4 harg4 hc0 x0 x1 xo2).1)

/-! ## What the output holds after each point -/

/-- The accumulation: what the output's staging buffer holds after the body at position `n`. -/
def outsAt0 (c : Dev nD) : (n : ℕ) → n < cfg0.N → Vec F S1x5x512 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a reset point. -/
theorem outsAt0_A (c : Dev nD) (t : Fin cfg0.N) (h0 : t.val % 8 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a keeping point: over what the point before left. -/
theorem outsAt0_B (c : Dev nD) (t : Fin cfg0.N) (h0 : ¬t.val % 8 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
/-- At a keeping point the output's staging buffer holds what the body left at the point before. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 16 := lt_of_lt_of_eq t.isLt (show cfg0.N = 16 from N_0)
  by_cases h0 : t.val % 8 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; afterwards every array of the pipeline holds what the proof data
    say, and every other unscoped buffer what the later lines compute from the region's exit contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c)))⟩) (run_main m ρ)

end Cert.Kernel.Hand

end
-- ==== Proof.KRuns.lean ====
/-
  The frame of the statistics kernel, first part: what the frame run and the body's run are stated over.

  @main is one pipelined region followed by 68 host operations. The region's grid has 2 × 8 points; point
  (p, j) stages block p·8 + j (4096 rows) of each input and block p of the [2, 5, 512] output, whose staging
  buffer is kept across the eight points of a half and written back after the last one. Here: the buffers'
  contents when the region is entered (nothing runs before it), @main as "the region, then the later lines",
  the three side conditions the later lines owe (they touch only unscoped buffers, allocate nothing, and write
  no array of the pipeline), each input's block at a point, and the body's one branch condition (the reset of
  the accumulator at the first point of a half), decided over the grid.
-/
import proofs.«104294_j30288109372144_2_alg».proof.Proof.Gen.KernelIdeal.Launch
import proofs.«104294_j30288109372144_2_alg».proof.Proof.Gen.KernelIdeal.Skeleton
import proofs.«104294_j30288109372144_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents (no host line precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The later lines allocate nothing. -/
theorem tail_fresh : (hostOps1 : List (HloOp τ sig (Elt F))).Forall fun op => op.fresh = ∅ := by
  simp only [List.Forall]; repeat' constructor

/-- The later lines write no array of the pipeline: each writes its own result buffer only. -/
theorem tail_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes,
    StableHlo.reshape_writes, Finset.mem_singleton]
  repeat' apply And.intro
  all_goals (intro w; fin_cases w <;> exact StableHlo.devRef_ne_of_ne (by decide))

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's current staging buffer holds its block at every point (both inputs are fetched at every point). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one `scf.if`: the second grid coordinate is zero. -/
abbrev cond0_0 (i : grid0.Coords) : Prop := (Scalar.cmpi .ne (Scalar.extui (Scalar.cmpi .eq (BitVec.ofNat 32 (i 1).val) 0#32)) 0#32) = 1#1
/-- It holds at the first point of each half. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs the body is called with -/

/-- One staging buffer of the output window, through which its contents are stated. -/
abbrev VO0_2 : View sig .tc .vmem S1x5x512 .f32 := (Memref.whole cc0_stg2_0 : Memref sig .tc .vmem S1x5x512 .f32).view
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5x512 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KRunA.lean ====
/-
  The body of the statistics kernel run at a point where the accumulator is reset (the first point of a half):
  on whole staging buffers — the two inputs at their blocks, the output at anything — the body runs to its end,
  leaves the inputs as they were and the output buffer written by two whole-block stores, the zero block and
  then the five partial column sums of the point's 4096 rows added to it. The stores found by the run are the
  witness; what they hold is read back later.
-/
import proofs.«104294_j30288109372144_2_alg».proof.Proof.KRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref at a reset point, with the run. -/
noncomputable def kernelRun0_A (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : cond0_0 i)
    (x0 : Vec F S4096x512 .f32) (x1 : Vec F S4096x512 .f32) :
    { L2 : List (View.Piece (Elt F) S1x5x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KRunB.lean ====
/-
  The body of the statistics kernel run at a point where the accumulator is kept (every point of a half but
  the first): on whole staging buffers — the two inputs at their blocks, the output at what the point before
  left — the body runs to its end, leaves the inputs as they were and the output buffer written by one
  whole-block store: the five partial column sums of the point's 4096 rows added to what it held.
-/
import proofs.«104294_j30288109372144_2_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The piece the body's store leaves in the output's staging memref at a keeping point, with the run. -/
noncomputable def kernelRun0_B (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : ¬cond0_0 i)
    (x0 : Vec F S4096x512 .f32) (x1 : Vec F S4096x512 .f32) (xo2 : Vec F S1x5x512 .f32) :
    { L2 : List (View.Piece (Elt F) S1x5x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KFrame.lean ====
/-
  The frame of the statistics kernel, last part. What the output's staging buffer holds after the body at each
  point, by recursion on the point: at the first point of a half the zero block plus that point's five partial
  column sums, at a later point what the point before left plus this point's partial sums (the buffer is not
  written back in between: the output's block index depends on the half only, and it is flushed after the last
  point of a half). With that as the proof data — the inputs' buffers at their blocks, the class's invariant,
  nothing owed, full shares — the body obligation is the two runs, chosen by the point's position in its half;
  the frame run is the library's launch theorem for a region followed by host lines; and the frame claim reads
  the two argument arrays off the run's post.
-/
import proofs.«104294_j30288109372144_2_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two stores of a reset point tile the output block. -/
theorem cover0_A_2 (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : cond0_0 i)
    (x0 : Vec F S4096x512 .f32) (x1 : Vec F S4096x512 .f32) (y : S1x5x512.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x5x512.size (by sl_kernel_rfl) y

/-- What a reset point leaves in the output's staging buffer. -/
def out0_A_2 (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : cond0_0 i)
    (x0 : Vec F S4096x512 .f32) (x1 : Vec F S4096x512 .f32) : Vec F S1x5x512 .f32 :=
  VO0_2.read (Elt F) (VO0_2.writes (Elt F) VO0_2.junk (kernelRun0_A c i arg2 harg2 arg3 harg3 arg4 harg4 hc0 x0 x1).1)

/-- The one store of a keeping point covers the output block. -/
theorem cover0_B_2 (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : ¬cond0_0 i)
    (x0 : Vec F S4096x512 .f32) (x1 : Vec F S4096x512 .f32) (xo2 : Vec F S1x5x512 .f32) (y : S1x5x512.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x5x512.size (by sl_kernel_rfl) y

/-- What a keeping point leaves in the output's staging buffer. -/
def out0_B_2 (c : Dev nD) (i : grid0.Coords) (arg2 : Memref sig .tc .vmem S4096x512 .f32) (harg2 : arg2.IsWhole) (arg3 : Memref sig .tc .vmem S4096x512 .f32) (harg3 : arg3.IsWhole) (arg4 : Memref sig .tc .vmem S1x5x512 .f32) (harg4 : arg4.IsWhole) (hc0 : ¬cond0_0 i)
    (x0 : Vec F S4096x512 .f32) (x1 : Vec F S4096x512 .f32) (xo2 : Vec F S1x5x512 .f32) : Vec F S1x5x512 .f32 :=
  VO0_2.read (Elt F) (VO0_2.writes (Elt F) VO0_2.junk (kernelRun0_B c i arg2 harg2 arg3 harg3 arg4 harg4 hc0 x0 x1 xo2).1)

/-! ## What the output holds after each point -/

/-- The accumulation: what the output's staging buffer holds after the body at position `n`. -/
def outsAt0 (c : Dev nD) : (n : ℕ) → n < cfg0.N → Vec F S1x5x512 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a reset point. -/
theorem outsAt0_A (c : Dev nD) (t : Fin cfg0.N) (h0 : t.val % 8 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a keeping point: over what the point before left. -/
theorem outsAt0_B (c : Dev nD) (t : Fin cfg0.N) (h0 : ¬t.val % 8 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
/-- At a keeping point the output's staging buffer holds what the body left at the point before. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 16 := lt_of_lt_of_eq t.isLt (show cfg0.N = 16 from N_0)
  by_cases h0 : t.val % 8 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; afterwards every array of the pipeline holds what the proof data
    say, and every other unscoped buffer what the later lines compute from the region's exit contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c)))⟩) (run_main m ρ)

end Cert.KernelIdeal.Hand

end
-- ==== Proof.KBody.lean ====
/-
  What one grid point of the statistics kernel adds to its accumulator, as one function of the point's two
  input blocks (4096 rows each) and the accumulator block [1, 5, 512]: the block is read in four slabs of 1024
  rows; for each of the five statistics (x, x·x, y, y·y, x·y) the slabs' column sums are added to zero one after
  the other; the five rows are stacked and added to the accumulator.
-/
import proofs.«104294_j30288109372144_2_alg».proof.Proof.Gen.KernelIdeal.Skeleton
import Idealize.ShloMosaic.Lib.Pipeline.FrameBody

noncomputable section

namespace Cert.KernelIdeal.HandValue

open Cert.KernelIdeal Cert.KernelIdeal.Gen
open Idealize.ShloMosaic

variable {F : FTy → Type} [FloatOps F]

/-- Slab `r` (1024 rows from row 1024·r, all 512 columns) lies inside a block of 4096 rows. -/
theorem slab_inb (o : ℕ) (ho : o + 1024 ≤ 4096) :
    ∀ a, (![o, 0] : Fin 2 → ℕ) a + (![1024, 512] : Fin 2 → ℕ) a ≤ S4096x512.size a := by
  intro a
  match a with
  | ⟨0, _⟩ => show o + 1024 ≤ 4096; exact ho
  | ⟨1, _⟩ => show 0 + 512 ≤ 512; omega

/-- Slab `r` of a block. -/
abbrev slab (x : Vec F S4096x512 .f32) (o : ℕ) (ho : o + 1024 ≤ 4096) : Vec F S1024x512 .f32 :=
  View.ld x (Rect.unit ![o, 0] ![1024, 512] (slab_inb o ho))

/-- One point's contribution added to the accumulator `acc`. -/
def bodyVal (x0 x1 : Vec F S4096x512 .f32) (acc : Vec F S1x5x512 .f32) : Vec F S1x5x512 .f32 :=
  k0_pay1
    (k0_pay8 (k0_pay3 (slab x0 0 (by omega))) (slab x0 1024 (by omega)) (slab x0 2048 (by omega)))
    (k0_pay9 (k0_pay4 (slab x0 0 (by omega))) (slab x0 1024 (by omega)) (slab x0 2048 (by omega)))
    (k0_pay10 (k0_pay5 (slab x1 0 (by omega))) (slab x1 1024 (by omega)) (slab x1 2048 (by omega)))
    (k0_pay11 (k0_pay6 (slab x1 0 (by omega))) (slab x1 1024 (by omega)) (slab x1 2048 (by omega)))
    (k0_pay12 (k0_pay7 (slab x0 0 (by omega)) (slab x1 0 (by omega))) (slab x0 1024 (by omega)) (slab x1 1024 (by omega))
      (slab x0 2048 (by omega)) (slab x1 2048 (by omega)))
    (slab x0 3072 (by omega)) (slab x1 3072 (by omega)) acc

/-- The zero block a reset point stores first. -/
abbrev zeroBlock : Vec F S1x5x512 .f32 := k0_pay2

end Cert.KernelIdeal.HandValue

end
-- ==== Proof.KValueA.lean ====
/-
  The statistics kernel's values, first part (at any float instance). What the two cases of the body leave
  in the output's staging buffer is one function of the point's input blocks and an accumulator: at a reset
  point the accumulator is the zero block, at a keeping point what the buffer held. The index maps, decided
  once over the 16 grid points: point t stages block t of each input (rows 4096·t …) and block ⌊t / 8⌋ of the
  output. So an input block read at local (r, q) is the argument array at (4096·t + r, q).
-/
import proofs.«104294_j30288109372144_2_alg».proof.Proof.KFrame
import proofs.«104294_j30288109372144_2_alg».proof.Proof.KBody
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl

/-- A keeping point leaves its contribution added to what the buffer held. -/
theorem out_B (c : Dev nD) (i : grid0.Coords) (a2 : Memref sig .tc .vmem S4096x512 .f32) (h2 : a2.IsWhole)
    (a3 : Memref sig .tc .vmem S4096x512 .f32) (h3 : a3.IsWhole) (a4 : Memref sig .tc .vmem S1x5x512 .f32) (h4 : a4.IsWhole)
    (hc : ¬cond0_0 i) (x0 x1 : Vec F S4096x512 .f32) (xo : Vec F S1x5x512 .f32) :
    out0_B_2 c i a2 h2 a3 h3 a4 h4 hc x0 x1 xo = bodyVal x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x5x512) hz3]
  rfl

/-- A reset point leaves its contribution added to the zero block: the read-back of the first store is that block. -/
theorem out_A (c : Dev nD) (i : grid0.Coords) (a2 : Memref sig .tc .vmem S4096x512 .f32) (h2 : a2.IsWhole)
    (a3 : Memref sig .tc .vmem S4096x512 .f32) (h3 : a3.IsWhole) (a4 : Memref sig .tc .vmem S1x5x512 .f32) (h4 : a4.IsWhole)
    (hc : cond0_0 i) (x0 x1 : Vec F S4096x512 .f32) :
    out0_A_2 c i a2 h2 a3 h3 a4 h4 hc x0 x1 = bodyVal x0 x1 zeroBlock := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x5x512) hz3, View.readCov_unit_zero (S := S1x5x512) _ hz3]
  simp only [View.readAt_eq_ld, h2.read_unread, h3.read_unread, View.ld_unit_zero (S := S1x5x512) hz3]
  rfl

/-- The printed index maps over the grid: inputs at block t, the output at block ⌊t / 8⌋. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0)

/-- Block t of the first input at local (r, q) is the argument at (4096·t + r, q). -/
theorem iblk0_apply (c : Dev nD) (t : Fin cfg0.N) (r : Fin 4096) (q : Fin 512) (hlt : t.val * 4096 + r.val < 65536) :
    (iblk m c 0 t : Vec F S4096x512 .f32) (ix2 r q) = (V m c main_arg0 : S65536x512.Idx → Elt F .f32) (ix2 ⟨t.val * 4096 + r.val, hlt⟩ q) := by
  unfold iblk
  rw [View.read_apply]
  show V m c main_arg0 _ = V m c main_arg0 _
  congr 1
  funext a
  apply Fin.ext
  match a with
  | ⟨0, _⟩ => show win0_0.index t 0 * 4096 + 1 * r.val = t.val * 4096 + r.val; rw [(idx_facts t).1]; omega
  | ⟨1, _⟩ => show win0_0.index t 1 * 512 + 1 * q.val = q.val; rw [(idx_facts t).2.1]; omega

/-- Block t of the second input at local (r, q) is the argument at (4096·t + r, q). -/
theorem iblk1_apply (c : Dev nD) (t : Fin cfg0.N) (r : Fin 4096) (q : Fin 512) (hlt : t.val * 4096 + r.val < 65536) :
    (iblk m c 1 t : Vec F S4096x512 .f32) (ix2 r q) = (V m c main_arg1 : S65536x512.Idx → Elt F .f32) (ix2 ⟨t.val * 4096 + r.val, hlt⟩ q) := by
  unfold iblk
  rw [View.read_apply]
  show V m c main_arg1 _ = V m c main_arg1 _
  congr 1
  funext a
  apply Fin.ext
  match a with
  | ⟨0, _⟩ => show win0_1.index t 0 * 4096 + 1 * r.val = t.val * 4096 + r.val; rw [(idx_facts t).2.2.1]; omega
  | ⟨1, _⟩ => show win0_1.index t 1 * 512 + 1 * q.val = q.val; rw [(idx_facts t).2.2.2.1]; omega

end Cert.KernelIdeal.HandValue

end
-- ==== Proof.Stat.lean ====
/-
  The five per-entry statistics whose column sums the kernel accumulates: x, x·x, y, y·y and x·y of a pair (x, y).
-/
import Mathlib.Data.EReal.Basic

noncomputable section

namespace Cert.Barlow

/-- Statistic `k` of the pair `(x, y)`. -/
def stat (k : Fin 5) (x y : EReal) : EReal :=
  match k with
  | ⟨0, _⟩ => x
  | ⟨1, _⟩ => x * x
  | ⟨2, _⟩ => y
  | ⟨3, _⟩ => y * y
  | ⟨4, _⟩ => x * y

theorem stat_0 (x y : EReal) : stat 0 x y = x := rfl
theorem stat_1 (x y : EReal) : stat 1 x y = x * x := rfl
theorem stat_2 (x y : EReal) : stat 2 x y = y := rfl
theorem stat_3 (x y : EReal) : stat 3 x y = y * y := rfl
theorem stat_4 (x y : EReal) : stat 4 x y = x * y := rfl

end Cert.Barlow

end
-- ==== Proof.Blocks.lean ====
/-
  Adding up a column in blocks. Over a commutative additive monoid, a sum over the first a + b indices is the
  sum over the first a plus the sum over the next b (indices a + j). Applied repeatedly:

  * a block of 4096 terms is the sum of its four slabs of 1024, added to zero one after the other;
  * a half of 32768 terms is what a running sum holds after eight steps, each step adding one block of 4096:
    after n + 1 steps it holds the sum of the first (n + 1) · 4096 terms (induction on n);
  * the column of 65536 terms is zero plus its first half plus its second half.

  Only associativity of + and 0 + x = x are used; no finiteness of the values is needed.
-/
import Mathlib.Algebra.BigOperators.Fin
import Mathlib.Tactic.Ring

open scoped BigOperators

namespace Cert.Barlow

variable {M : Type*} [AddCommMonoid M]

/-- The sum of the first \`c = a + b\` terms is the sum of the first \`a\` plus the sum of the next \`b\`. -/
theorem prefix_split {N : ℕ} (g : Fin N → M) (c a b : ℕ) (hc : c = a + b) (hN : c ≤ N) :
    ∑ i : Fin c, g ⟨i.val, by omega⟩
      = ∑ i : Fin a, g ⟨i.val, by omega⟩ + ∑ j : Fin b, g ⟨a + j.val, by omega⟩ := by
  subst hc
  rw [Fin.sum_univ_add]
  rfl

/-- The sum of the first \`N\` of \`N\` terms is the whole sum. -/
theorem prefix_all {N : ℕ} (g : Fin N → M) (c : ℕ) (hc : c = N) :
    ∑ i : Fin c, g ⟨i.val, by omega⟩ = ∑ i, g i := by
  subst hc
  rfl

/-- A block of 4096 terms from its four slabs of 1024, added to zero one after the other. -/
theorem block_of_slabs (h : Fin 4096 → M) :
    ((((0 : M) + ∑ r : Fin 1024, h ⟨r.val, by omega⟩) + ∑ r : Fin 1024, h ⟨1024 + r.val, by omega⟩)
        + ∑ r : Fin 1024, h ⟨2048 + r.val, by omega⟩) + ∑ r : Fin 1024, h ⟨3072 + r.val, by omega⟩
      = ∑ rr : Fin 4096, h rr := by
  have e := prefix_split h 4096 3072 1024 (by omega) le_rfl
  rw [prefix_split h 3072 2048 1024 (by omega) (by omega),
    prefix_split h 2048 1024 1024 (by omega) (by omega)] at e
  rw [zero_add, ← prefix_all h 4096 rfl]
  exact e.symm

/-- The running sum of a half (32768 terms) after its first \`n + 1\` blocks of 4096: it starts at the first
    block added to zero, and adds one block per step. -/
def halfAcc (g : Fin 32768 → M) : (n : ℕ) → n < 8 → M
  | 0, _ => (0 : M) + ∑ rr : Fin 4096, g ⟨rr.val, by omega⟩
  | n + 1, hn => halfAcc g n (by omega) + ∑ rr : Fin 4096, g ⟨(n + 1) * 4096 + rr.val, by omega⟩

theorem halfAcc_zero (g : Fin 32768 → M) (h0 : 0 < 8) :
    halfAcc g 0 h0 = (0 : M) + ∑ rr : Fin 4096, g ⟨rr.val, by omega⟩ := rfl

theorem halfAcc_succ (g : Fin 32768 → M) (n : ℕ) (hn : n + 1 < 8) :
    halfAcc g (n + 1) hn
      = halfAcc g n (by omega) + ∑ rr : Fin 4096, g ⟨(n + 1) * 4096 + rr.val, by omega⟩ := rfl

/-- After \`n + 1\` steps the running sum is the sum of the first \`c = (n + 1) · 4096\` terms. -/
theorem halfAcc_eq (g : Fin 32768 → M) :
    ∀ (n : ℕ) (hn : n < 8) (c : ℕ) (hc : c = (n + 1) * 4096),
      halfAcc g n hn = ∑ i : Fin c, g ⟨i.val, by omega⟩ := by
  intro n
  induction n with
  | zero =>
    intro hn c hc
    obtain rfl : c = 4096 := by omega
    rw [halfAcc_zero, zero_add]
  | succ n ih =>
    intro hn c hc
    have hn' : n < 8 := by omega
    have e1 : c = (n + 1) * 4096 + 4096 := by rw [hc]; exact Nat.succ_mul _ _
    have e2 : c ≤ 32768 := by omega
    have e3 := prefix_split g c ((n + 1) * 4096) 4096 e1 e2
    have e4 := ih hn' ((n + 1) * 4096) rfl
    rw [halfAcc_succ, e4]
    exact e3.symm

theorem halfAcc_last (g : Fin 32768 → M) : halfAcc g 7 (by omega) = ∑ r : Fin 32768, g r := by
  rw [halfAcc_eq g 7 (by omega) 32768 (by omega)]

/-- The whole column from its two halves, added to zero. -/
theorem column_of_halves (g : Fin 65536 → M) :
    ((0 : M) + ∑ r : Fin 32768, g ⟨r.val, by omega⟩) + ∑ r : Fin 32768, g ⟨32768 + r.val, by omega⟩
      = ∑ b : Fin 65536, g b := by
  rw [zero_add, ← prefix_all g 65536 rfl]
  exact (prefix_split g 65536 32768 32768 (by omega) le_rfl).symm

/-- The same with the two halves as a sum over \`p : Fin 2\`. -/
theorem column_of_halves_fin2 (g : Fin 65536 → M) :
    (0 : M) + ∑ p : Fin 2, ∑ r : Fin 32768, g ⟨p.val * 32768 + r.val, by omega⟩ = ∑ b : Fin 65536, g b := by
  have h0 : ∀ r : Fin 32768, g ⟨(0 : Fin 2).val * 32768 + r.val, by omega⟩ = g ⟨r.val, by omega⟩ :=
    fun r => congrArg g (Fin.ext (by simp))
  have h1 : ∀ r : Fin 32768, g ⟨(1 : Fin 2).val * 32768 + r.val, by omega⟩ = g ⟨32768 + r.val, by omega⟩ :=
    fun r => congrArg g (Fin.ext (by simp))
  rw [Fin.sum_univ_two]
  simp only [h0, h1]
  rw [← add_assoc]
  exact column_of_halves g

end Cert.Barlow
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.LibSpreadRow.lean ====
/-
  Row vectors and scalar constants spread over an array, read at an index (over any element type; the last two over
  the extended reals).

  A length-C vector b becomes a [1, C] row either by a reshape or by a broadcast along a new leading axis; spread over
  N rows, entry (p, q) of the result is b(q) either way.  A scalar constant spread over any shape reads the constant
  everywhere.  The host's reciprocal square root of an array is taken entry by entry.
-/
import Idealize.ShloMosaic.Lib.ValueIdx
import Idealize.ShloMosaic.Lib.Pipeline.Value
import Idealize.ShloMosaic.PureOps.Ideal.Laws

noncomputable section

namespace Cert.LibSpreadRow

open Idealize.ShloMosaic Idealize.ShloMosaic.ValueIdx

variable {N C : ℕ}

/-- A vector made a row by a broadcast along a new leading axis and then spread over N rows: entry (p, q) is b(q). -/
theorem spread_row_apply {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 b) (ix2 p q) = b (ix1 q) := by
  have e2 : broadcastInDim ⟨2, ![N, C]⟩ ![0, 1] h2 (broadcastInDim ⟨2, ![1, C]⟩ ![1] h1 b) (ix2 p q)
      = broadcastInDim ⟨2, ![1, C]⟩ ![1] h1 b (ix2 0 q) := by
    refine broadcastInDim_apply ![0, 1] h2 _ (ix2 p q) (ix2 0 q) fun a => ?_
    match a with
    | ⟨0, _⟩ => show (0 : ℕ) = if (1 : ℕ) = 1 then 0 else p.val; rfl
    | ⟨1, _⟩ =>
      show q.val = if C = 1 then 0 else q.val
      split
      · have := q.isLt; omega
      · rfl
  have e1 : broadcastInDim ⟨2, ![1, C]⟩ ![1] h1 b (ix2 0 q) = b (ix1 q) := by
    refine broadcastInDim_apply ![1] h1 b (ix2 0 q) (ix1 q) fun a => ?_
    match a with
    | ⟨0, _⟩ =>
      show q.val = if C = 1 then 0 else q.val
      split
      · have := q.isLt; omega
      · rfl
  rw [e2, e1]

/-- A vector reshaped to a [1, C] row, read at (0, q), is b(q). -/
theorem reshape_row_apply {α : Type} (b : (⟨1, ![C]⟩ : Shape).Idx → α)
    (h : (⟨1, ![C]⟩ : Shape).ShapeCasts ⟨2, ![1, C]⟩) (q : Fin C) :
    shapeCast ⟨2, ![1, C]⟩ b h (ix2 0 q) = b (ix1 q) := by
  refine shapeCast_apply b h (ix2 0 q) (ix1 q) ?_
  rw [Shape.rowMajor_val_one, Shape.rowMajor_val_two]
  show q.val = (0 : Fin 1).val * C + q.val
  simp

/-- A scalar constant spread over any shape reads the constant's value everywhere. -/
theorem spread_const_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w :=
  (broadcastInDim_apply (s := ⟨0, ![]⟩) ![] h (constant (F := Ideal) ⟨0, ![]⟩ φ w) j (fun a => a.elim0) (fun a => a.elim0)).trans rfl

/-- The host's reciprocal square root of an array, read at an index. -/
theorem host_rsqrt_apply {s : Shape} {φ : FTy} (v : FVec Ideal s φ) (i : s.Idx) : Host.rsqrt v i = Ideal.rsqrt (v i) := rfl

end Cert.LibSpreadRow

end
-- ==== Proof.LibSlabs.lean ====
/-
  Slabs of an array read through a unit-stride rectangle that keeps the trailing axes whole.

  A load of `n` consecutive positions of the leading axis, starting at `o`, with every other axis whole, reads at local
  coordinates `(i, j, …)` the array at `(o + i, j, …)`. Stated at ranks two, three and four, with the indices written
  by coordinates. A last lemma reads a `[1, 1, a, b]` array cast to `[a, b]`.
-/
import Idealize.ShloMosaic.Lib.Pipeline.Value
import Idealize.ShloMosaic.Lib.ValueIdx
import Idealize.ShloMosaic.Lib.ValueLayout

noncomputable section

namespace Cert.LibSlabs

open Idealize.ShloMosaic Idealize.ShloMosaic.ValueIdx

variable {Val : EltTy → Type} {e : EltTy}

/-- Rows `o … o + n - 1` of an `[m, b]` array: local `(i, j)` reads the array at `(o + i, j)`. -/
theorem ld_rows2 {m n b : ℕ} (X : (⟨2, ![m, b]⟩ : Shape).Idx → Val e) (o : ℕ)
    (inb : ∀ a, (![o, 0] : Fin 2 → ℕ) a + (![n, b] : Fin 2 → ℕ) a ≤ (⟨2, ![m, b]⟩ : Shape).size a)
    (i : Fin n) (j : Fin b) (hlt : o + i.val < m) :
    View.ld X (Rect.unit ![o, 0] ![n, b] inb) (ix2 i j) = X (ix2 ⟨o + i.val, hlt⟩ j) := by
  refine congrArg X (funext fun a => Fin.ext ?_)
  match a with
  | ⟨0, _⟩ => show o + 1 * i.val = o + i.val; omega
  | ⟨1, _⟩ => show 0 + 1 * j.val = j.val; omega

/-- Slabs `o … o + n - 1` of an `[m, a, b]` array: local `(u, i, j)` reads the array at `(o + u, i, j)`. -/
theorem ld_slabs3 {m n a b : ℕ} (X : (⟨3, ![m, a, b]⟩ : Shape).Idx → Val e) (o : ℕ)
    (inb : ∀ c, (![o, 0, 0] : Fin 3 → ℕ) c + (![n, a, b] : Fin 3 → ℕ) c ≤ (⟨3, ![m, a, b]⟩ : Shape).size c)
    (u : Fin n) (i : Fin a) (j : Fin b) (hlt : o + u.val < m) :
    View.ld X (Rect.unit ![o, 0, 0] ![n, a, b] inb) (ix3 u i j) = X (ix3 ⟨o + u.val, hlt⟩ i j) := by
  refine congrArg X (funext fun c => Fin.ext ?_)
  match c with
  | ⟨0, _⟩ => show o + 1 * u.val = o + u.val; omega
  | ⟨1, _⟩ => show 0 + 1 * i.val = i.val; omega
  | ⟨2, _⟩ => show 0 + 1 * j.val = j.val; omega

/-- Slabs `o … o + n - 1` of an `[m, k, a, b]` array with the other axes whole: local `(u, v, i, j)` reads `(o + u, v, i, j)`. -/
theorem ld_slabs4 {m n k a b : ℕ} (X : (⟨4, ![m, k, a, b]⟩ : Shape).Idx → Val e) (o : ℕ)
    (inb : ∀ c, (![o, 0, 0, 0] : Fin 4 → ℕ) c + (![n, k, a, b] : Fin 4 → ℕ) c ≤ (⟨4, ![m, k, a, b]⟩ : Shape).size c)
    (u : Fin n) (v : Fin k) (i : Fin a) (j : Fin b) (hlt : o + u.val < m) :
    View.ld X (Rect.unit ![o, 0, 0, 0] ![n, k, a, b] inb) (ix4 u v i j) = X (ix4 ⟨o + u.val, hlt⟩ v i j) := by
  refine congrArg X (funext fun c => Fin.ext ?_)
  match c with
  | ⟨0, _⟩ => show o + 1 * u.val = o + u.val; omega
  | ⟨1, _⟩ => show 0 + 1 * v.val = v.val; omega
  | ⟨2, _⟩ => show 0 + 1 * i.val = i.val; omega
  | ⟨3, _⟩ => show 0 + 1 * j.val = j.val; omega

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.LibSlabs

end
-- ==== Proof.KBodyAt.lean ====
/-
  One grid point's contribution to the accumulator, read entry by entry when floats are extended reals.

  The point reads its two input blocks (4096 rows, 512 columns) in four slabs of 1024 rows. For each of the five
  statistics (x, x·x, y, y·y, x·y) and each column q it forms the slab's column sum (the sum over the slab's 1024 rows
  of the statistic at (row, q)), adds the four slabs' sums to zero one after the other, stacks the five resulting rows,
  and adds the stack to the accumulator block [1, 5, 512]. Read at (0, k, q) this is

      acc (0, k, q) + ((((0 + S₀) + S₁) + S₂) + S₃),      Sᵢ = ∑ over r < 1024 of stat k (x0 (1024·i + r, q)) (x1 (1024·i + r, q)),

  and the four slab sums added to zero are the sum over all 4096 rows of the block. The reshapes between [512] and
  [1, 512] and between [5, 512] and [1, 5, 512] only insert or drop a unit axis, so they keep the entry; row k of the
  stack of five rows is the k-th row; slab i's local row r is the block's row 1024·i + r. The zero block is the zero
  constant at every entry.
-/
import proofs.«104294_j30288109372144_2_alg».proof.Proof.KBody
import proofs.«104294_j30288109372144_2_alg».proof.Proof.Stat
import proofs.«104294_j30288109372144_2_alg».proof.Proof.Blocks
import proofs.«104294_j30288109372144_2_alg».proof.Proof.LibRank2
import proofs.«104294_j30288109372144_2_alg».proof.Proof.LibSpreadRow
import proofs.«104294_j30288109372144_2_alg».proof.Proof.LibSlabs
import Idealize.ShloMosaic.PureOps.Ideal.Laws
import Idealize.ShloMosaic.Lib.ValueIdx
import Idealize.ShloMosaic.Lib.Pipeline.Value

noncomputable section

namespace Cert.KernelIdeal.HandValue

open Idealize.ShloMosaic Idealize.ShloMosaic.ValueIdx Cert.KernelIdeal Cert.KernelIdeal.Gen Cert.Barlow

/-- The zero row reads zero. -/
theorem zero_row_apply (s : Shape) (i : s.Idx) :
    (broadcast s (Scalar.ofBits (F := Ideal) .f32 0x00000000#32) : FVec Ideal s .f32) i = 0 :=
  Ideal.ofBits_zero_f32

/-- The column sums of a slab, made a [1, 512] row, read at (0, q). -/
theorem colrow_apply (x : FVec Ideal S1024x512 .f32) (h : S1024x512.Reduces [0] S512) (hc : S512.ShapeCasts S1x512)
    (q : Fin 512) :
    shapeCast S1x512 (multiReduction (F := Ideal) .add [0] S512 x 0x00000000#32 h (.inl rfl) rfl) hc (ix2 (0 : Fin 1) q)
      = ∑ r : Fin 1024, x (ix2 r q) :=
  (Cert.LibSpreadRow.reshape_row_apply _ hc q).trans (Cert.LibRank2.sum_first x _ h _ _ q)

theorem pay3_apply (s0 : FVec Ideal S1024x512 .f32) (q : Fin 512) :
    k0_pay3 (F := Ideal) s0 (ix2 (0 : Fin 1) q) = 0 + ∑ r : Fin 1024, s0 (ix2 r q) := by
  unfold k0_pay3
  dsimp only
  rw [addf_apply, colrow_apply, zero_row_apply]

theorem pay4_apply (s0 : FVec Ideal S1024x512 .f32) (q : Fin 512) :
    k0_pay4 (F := Ideal) s0 (ix2 (0 : Fin 1) q) = 0 + ∑ r : Fin 1024, s0 (ix2 r q) * s0 (ix2 r q) := by
  unfold k0_pay4
  dsimp only
  rw [addf_apply, colrow_apply, zero_row_apply]
  rfl

theorem pay7_apply (s0 t0 : FVec Ideal S1024x512 .f32) (q : Fin 512) :
    k0_pay7 (F := Ideal) s0 t0 (ix2 (0 : Fin 1) q) = 0 + ∑ r : Fin 1024, s0 (ix2 r q) * t0 (ix2 r q) := by
  unfold k0_pay7
  dsimp only
  rw [addf_apply, colrow_apply, zero_row_apply]
  rfl

theorem pay8_apply (v : FVec Ideal S1x512 .f32) (s1 s2 : FVec Ideal S1024x512 .f32) (q : Fin 512) :
    k0_pay8 (F := Ideal) v s1 s2 (ix2 (0 : Fin 1) q)
      = (v (ix2 (0 : Fin 1) q) + ∑ r : Fin 1024, s1 (ix2 r q)) + ∑ r : Fin 1024, s2 (ix2 r q) := by
  unfold k0_pay8
  dsimp only
  rw [addf_apply, addf_apply, colrow_apply, colrow_apply]

theorem pay9_apply (v : FVec Ideal S1x512 .f32) (s1 s2 : FVec Ideal S1024x512 .f32) (q : Fin 512) :
    k0_pay9 (F := Ideal) v s1 s2 (ix2 (0 : Fin 1) q)
      = (v (ix2 (0 : Fin 1) q) + ∑ r : Fin 1024, s1 (ix2 r q) * s1 (ix2 r q)) + ∑ r : Fin 1024, s2 (ix2 r q) * s2 (ix2 r q) := by
  unfold k0_pay9
  dsimp only
  rw [addf_apply, addf_apply, colrow_apply, colrow_apply]
  rfl

theorem pay12_apply (v : FVec Ideal S1x512 .f32) (s1 t1 s2 t2 : FVec Ideal S1024x512 .f32) (q : Fin 512) :
    k0_pay12 (F := Ideal) v s1 t1 s2 t2 (ix2 (0 : Fin 1) q)
      = (v (ix2 (0 : Fin 1) q) + ∑ r : Fin 1024, s1 (ix2 r q) * t1 (ix2 r q)) + ∑ r : Fin 1024, s2 (ix2 r q) * t2 (ix2 r q) := by
  unfold k0_pay12
  dsimp only
  rw [addf_apply, addf_apply, colrow_apply, colrow_apply]
  rfl

/-- pay5 / pay6 / pay10 / pay11 are pay3 / pay4 / pay8 / pay9 with other names. -/
theorem pay5_apply (s0 : FVec Ideal S1024x512 .f32) (q : Fin 512) :
    k0_pay5 (F := Ideal) s0 (ix2 (0 : Fin 1) q) = 0 + ∑ r : Fin 1024, s0 (ix2 r q) := pay3_apply s0 q
theorem pay6_apply (s0 : FVec Ideal S1024x512 .f32) (q : Fin 512) :
    k0_pay6 (F := Ideal) s0 (ix2 (0 : Fin 1) q) = 0 + ∑ r : Fin 1024, s0 (ix2 r q) * s0 (ix2 r q) := pay4_apply s0 q
theorem pay10_apply (v : FVec Ideal S1x512 .f32) (s1 s2 : FVec Ideal S1024x512 .f32) (q : Fin 512) :
    k0_pay10 (F := Ideal) v s1 s2 (ix2 (0 : Fin 1) q)
      = (v (ix2 (0 : Fin 1) q) + ∑ r : Fin 1024, s1 (ix2 r q)) + ∑ r : Fin 1024, s2 (ix2 r q) := pay8_apply v s1 s2 q
theorem pay11_apply (v : FVec Ideal S1x512 .f32) (s1 s2 : FVec Ideal S1024x512 .f32) (q : Fin 512) :
    k0_pay11 (F := Ideal) v s1 s2 (ix2 (0 : Fin 1) q)
      = (v (ix2 (0 : Fin 1) q) + ∑ r : Fin 1024, s1 (ix2 r q) * s1 (ix2 r q)) + ∑ r : Fin 1024, s2 (ix2 r q) * s2 (ix2 r q) :=
  pay9_apply v s1 s2 q

/-- A slab's entry is the block's entry. -/
theorem slab_apply (x : FVec Ideal S4096x512 .f32) (o : ℕ) (ho : o + 1024 ≤ 4096) (r : Fin 1024) (q : Fin 512) :
    slab (F := Ideal) x o ho (ix2 r q) = x (ix2 ⟨o + r.val, by omega⟩ q) :=
  Cert.LibSlabs.ld_rows2 (Val := Elt Ideal) (e := .f32) x o (slab_inb o ho) r q (by omega)

/-- A [5, 512] array cast to [1, 5, 512], read at (0, k, q). -/
theorem castUp_apply {α : Type} (v : S5x512.Idx → α) (h : S5x512.ShapeCasts S1x5x512) (k : Fin 5) (q : Fin 512) :
    shapeCast S1x5x512 v h (ix3 (0 : Fin 1) k q) = v (ix2 k q) :=
  shapeCast_apply v h _ _ (by
    rw [Shape.rowMajor_val_two, Shape.rowMajor_val_three]
    show k.val * 512 + q.val = ((0 : Fin 1).val * 5 + k.val) * 512 + q.val
    simp)

/-- A [1, 5, 512] array cast to [5, 512], read at (k, q). -/
theorem castDown_apply {α : Type} (v : S1x5x512.Idx → α) (h : S1x5x512.ShapeCasts S5x512) (k : Fin 5) (q : Fin 512) :
    shapeCast S5x512 v h (ix2 k q) = v (ix3 (0 : Fin 1) k q) :=
  shapeCast_apply v h _ _ (by
    rw [Shape.rowMajor_val_two, Shape.rowMajor_val_three]
    show ((0 : Fin 1).val * 5 + k.val) * 512 + q.val = k.val * 512 + q.val
    simp)

section Concat
variable {α : Type} (x0 x1 x2 x3 x4 : S1x512.Idx → α)
  (h : Shape.Concatenates [S1x512, S1x512, S1x512, S1x512, S1x512] S5x512 0) (q : Fin 512)

theorem concat5_hi (k : Fin 5) : ∀ b : Fin S1x512.rank, b.cast (rfl : S1x512.rank = S5x512.rank) ≠ (0 : Fin S5x512.rank) →
    ((ix2 (0 : Fin 1) q : S1x512.Idx) b).val = ((ix2 k q : S5x512.Idx) (b.cast rfl)).val := by
  intro b hb
  match b, hb with
  | ⟨0, _⟩, hb => exact absurd rfl hb
  | ⟨1, _⟩, _ => rfl

/-- Five [1, 512] rows stacked into [5, 512]: row k of the result is the k-th row. -/
theorem concat5_0 :
    concatenate S5x512 0 [⟨S1x512, x0⟩, ⟨S1x512, x1⟩, ⟨S1x512, x2⟩, ⟨S1x512, x3⟩, ⟨S1x512, x4⟩] h (ix2 (0 : Fin 5) q)
      = x0 (ix2 (0 : Fin 1) q) :=
  concatenate_apply_piece (t := S5x512) (0 : Fin S5x512.rank) [⟨S1x512, x0⟩, ⟨S1x512, x1⟩, ⟨S1x512, x2⟩, ⟨S1x512, x3⟩, ⟨S1x512, x4⟩] h (ix2 (0 : Fin 5) q) 0 (by simp) S1x512 x0 rfl rfl 0 rfl (ix2 (0 : Fin 1) q)
    (concat5_hi q 0) rfl
theorem concat5_1 :
    concatenate S5x512 0 [⟨S1x512, x0⟩, ⟨S1x512, x1⟩, ⟨S1x512, x2⟩, ⟨S1x512, x3⟩, ⟨S1x512, x4⟩] h (ix2 (1 : Fin 5) q)
      = x1 (ix2 (0 : Fin 1) q) :=
  concatenate_apply_piece (t := S5x512) (0 : Fin S5x512.rank) [⟨S1x512, x0⟩, ⟨S1x512, x1⟩, ⟨S1x512, x2⟩, ⟨S1x512, x3⟩, ⟨S1x512, x4⟩] h (ix2 (1 : Fin 5) q) 1 (by simp) S1x512 x1 rfl rfl 1 rfl (ix2 (0 : Fin 1) q)
    (concat5_hi q 1) rfl
theorem concat5_2 :
    concatenate S5x512 0 [⟨S1x512, x0⟩, ⟨S1x512, x1⟩, ⟨S1x512, x2⟩, ⟨S1x512, x3⟩, ⟨S1x512, x4⟩] h (ix2 (2 : Fin 5) q)
      = x2 (ix2 (0 : Fin 1) q) :=
  concatenate_apply_piece (t := S5x512) (0 : Fin S5x512.rank) [⟨S1x512, x0⟩, ⟨S1x512, x1⟩, ⟨S1x512, x2⟩, ⟨S1x512, x3⟩, ⟨S1x512, x4⟩] h (ix2 (2 : Fin 5) q) 2 (by simp) S1x512 x2 rfl rfl 2 rfl (ix2 (0 : Fin 1) q)
    (concat5_hi q 2) rfl
theorem concat5_3 :
    concatenate S5x512 0 [⟨S1x512, x0⟩, ⟨S1x512, x1⟩, ⟨S1x512, x2⟩, ⟨S1x512, x3⟩, ⟨S1x512, x4⟩] h (ix2 (3 : Fin 5) q)
      = x3 (ix2 (0 : Fin 1) q) :=
  concatenate_apply_piece (t := S5x512) (0 : Fin S5x512.rank) [⟨S1x512, x0⟩, ⟨S1x512, x1⟩, ⟨S1x512, x2⟩, ⟨S1x512, x3⟩, ⟨S1x512, x4⟩] h (ix2 (3 : Fin 5) q) 3 (by simp) S1x512 x3 rfl rfl 3 rfl (ix2 (0 : Fin 1) q)
    (concat5_hi q 3) rfl
theorem concat5_4 :
    concatenate S5x512 0 [⟨S1x512, x0⟩, ⟨S1x512, x1⟩, ⟨S1x512, x2⟩, ⟨S1x512, x3⟩, ⟨S1x512, x4⟩] h (ix2 (4 : Fin 5) q)
      = x4 (ix2 (0 : Fin 1) q) :=
  concatenate_apply_piece (t := S5x512) (0 : Fin S5x512.rank) [⟨S1x512, x0⟩, ⟨S1x512, x1⟩, ⟨S1x512, x2⟩, ⟨S1x512, x3⟩, ⟨S1x512, x4⟩] h (ix2 (4 : Fin 5) q) 4 (by simp) S1x512 x4 rfl rfl 4 rfl (ix2 (0 : Fin 1) q)
    (concat5_hi q 4) rfl
end Concat

section Pay1
variable (v64 v68 v71 v75 v79 : FVec Ideal S1x512 .f32) (s3 t3 : FVec Ideal S1024x512 .f32)
  (acc : FVec Ideal S1x5x512 .f32) (q : Fin 512)

theorem pay1_apply_0 :
    k0_pay1 (F := Ideal) v64 v68 v71 v75 v79 s3 t3 acc (ix3 (0 : Fin 1) (0 : Fin 5) q)
      = acc (ix3 (0 : Fin 1) (0 : Fin 5) q) + (v64 (ix2 (0 : Fin 1) q) + ∑ r : Fin 1024, s3 (ix2 r q)) := by
  unfold k0_pay1
  dsimp only
  rw [castUp_apply, addf_apply, castDown_apply, concat5_0, addf_apply, colrow_apply]
end Pay1

section Pay1More
variable (v64 v68 v71 v75 v79 : FVec Ideal S1x512 .f32) (s3 t3 : FVec Ideal S1024x512 .f32)
  (acc : FVec Ideal S1x5x512 .f32) (q : Fin 512)

theorem pay1_apply_1 :
    k0_pay1 (F := Ideal) v64 v68 v71 v75 v79 s3 t3 acc (ix3 (0 : Fin 1) (1 : Fin 5) q)
      = acc (ix3 (0 : Fin 1) (1 : Fin 5) q) + (v68 (ix2 (0 : Fin 1) q) + ∑ r : Fin 1024, s3 (ix2 r q) * s3 (ix2 r q)) := by
  unfold k0_pay1
  dsimp only
  rw [castUp_apply, addf_apply, castDown_apply, concat5_1, addf_apply, colrow_apply]
  rfl

theorem pay1_apply_2 :
    k0_pay1 (F := Ideal) v64 v68 v71 v75 v79 s3 t3 acc (ix3 (0 : Fin 1) (2 : Fin 5) q)
      = acc (ix3 (0 : Fin 1) (2 : Fin 5) q) + (v71 (ix2 (0 : Fin 1) q) + ∑ r : Fin 1024, t3 (ix2 r q)) := by
  unfold k0_pay1
  dsimp only
  rw [castUp_apply, addf_apply, castDown_apply, concat5_2, addf_apply, colrow_apply]

theorem pay1_apply_3 :
    k0_pay1 (F := Ideal) v64 v68 v71 v75 v79 s3 t3 acc (ix3 (0 : Fin 1) (3 : Fin 5) q)
      = acc (ix3 (0 : Fin 1) (3 : Fin 5) q) + (v75 (ix2 (0 : Fin 1) q) + ∑ r : Fin 1024, t3 (ix2 r q) * t3 (ix2 r q)) := by
  unfold k0_pay1
  dsimp only
  rw [castUp_apply, addf_apply, castDown_apply, concat5_3, addf_apply, colrow_apply]
  rfl

theorem pay1_apply_4 :
    k0_pay1 (F := Ideal) v64 v68 v71 v75 v79 s3 t3 acc (ix3 (0 : Fin 1) (4 : Fin 5) q)
      = acc (ix3 (0 : Fin 1) (4 : Fin 5) q) + (v79 (ix2 (0 : Fin 1) q) + ∑ r : Fin 1024, s3 (ix2 r q) * t3 (ix2 r q)) := by
  unfold k0_pay1
  dsimp only
  rw [castUp_apply, addf_apply, castDown_apply, concat5_4, addf_apply, colrow_apply]
  rfl
end Pay1More

/-- A slab's rows lie in the block. -/
theorem slab_lt (o : ℕ)
    (inb : ∀ a, (![o, 0] : Fin 2 → ℕ) a + (![1024, 512] : Fin 2 → ℕ) a ≤ S4096x512.size a) (r : Fin 1024) :
    o + r.val < 4096 := by
  have h : o + 1024 ≤ 4096 := inb 0
  omega

/-- Where a slab's local entry (r, q) sits in the block: row o + r, column q. -/
theorem slab_idx (o : ℕ)
    (inb : ∀ a, (![o, 0] : Fin 2 → ℕ) a + (![1024, 512] : Fin 2 → ℕ) a ≤ S4096x512.size a)
    (r : Fin 1024) (q : Fin 512) :
    (Rect.unit (s := S4096x512) ![o, 0] ![1024, 512] inb).idx (ix2 r q) = ix2 ⟨o + r.val, slab_lt o inb r⟩ q :=
  Cert.LibSlabs.ld_rows2 (Val := fun _ => S4096x512.Idx) (e := .f32) (fun i => i) o inb r q (slab_lt o inb r)

section Body
variable (x0 x1 : FVec Ideal S4096x512 .f32) (acc : FVec Ideal S1x5x512 .f32) (q : Fin 512)

theorem bodyVal_apply_0 :
    bodyVal (F := Ideal) x0 x1 acc (ix3 (0 : Fin 1) (0 : Fin 5) q)
      = acc (ix3 (0 : Fin 1) (0 : Fin 5) q) + ∑ rr : Fin 4096, stat 0 (x0 (ix2 rr q)) (x1 (ix2 rr q)) := by
  unfold bodyVal
  rw [pay1_apply_0, pay8_apply, pay3_apply]
  simp only [slab, View.ld, slab_idx, Nat.zero_add]
  exact congrArg (acc (ix3 (0 : Fin 1) (0 : Fin 5) q) + ·)
    (block_of_slabs (fun rr : Fin 4096 => stat 0 (x0 (ix2 rr q)) (x1 (ix2 rr q))))

theorem bodyVal_apply_1 :
    bodyVal (F := Ideal) x0 x1 acc (ix3 (0 : Fin 1) (1 : Fin 5) q)
      = acc (ix3 (0 : Fin 1) (1 : Fin 5) q) + ∑ rr : Fin 4096, stat 1 (x0 (ix2 rr q)) (x1 (ix2 rr q)) := by
  unfold bodyVal
  rw [pay1_apply_1, pay9_apply, pay4_apply]
  simp only [slab, View.ld, slab_idx, Nat.zero_add]
  exact congrArg (acc (ix3 (0 : Fin 1) (1 : Fin 5) q) + ·)
    (block_of_slabs (fun rr : Fin 4096 => stat 1 (x0 (ix2 rr q)) (x1 (ix2 rr q))))

theorem bodyVal_apply_2 :
    bodyVal (F := Ideal) x0 x1 acc (ix3 (0 : Fin 1) (2 : Fin 5) q)
      = acc (ix3 (0 : Fin 1) (2 : Fin 5) q) + ∑ rr : Fin 4096, stat 2 (x0 (ix2 rr q)) (x1 (ix2 rr q)) := by
  unfold bodyVal
  rw [pay1_apply_2, pay10_apply, pay5_apply]
  simp only [slab, View.ld, slab_idx, Nat.zero_add]
  exact congrArg (acc (ix3 (0 : Fin 1) (2 : Fin 5) q) + ·)
    (block_of_slabs (fun rr : Fin 4096 => stat 2 (x0 (ix2 rr q)) (x1 (ix2 rr q))))

theorem bodyVal_apply_3 :
    bodyVal (F := Ideal) x0 x1 acc (ix3 (0 : Fin 1) (3 : Fin 5) q)
      = acc (ix3 (0 : Fin 1) (3 : Fin 5) q) + ∑ rr : Fin 4096, stat 3 (x0 (ix2 rr q)) (x1 (ix2 rr q)) := by
  unfold bodyVal
  rw [pay1_apply_3, pay11_apply, pay6_apply]
  simp only [slab, View.ld, slab_idx, Nat.zero_add]
  exact congrArg (acc (ix3 (0 : Fin 1) (3 : Fin 5) q) + ·)
    (block_of_slabs (fun rr : Fin 4096 => stat 3 (x0 (ix2 rr q)) (x1 (ix2 rr q))))

theorem bodyVal_apply_4 :
    bodyVal (F := Ideal) x0 x1 acc (ix3 (0 : Fin 1) (4 : Fin 5) q)
      = acc (ix3 (0 : Fin 1) (4 : Fin 5) q) + ∑ rr : Fin 4096, stat 4 (x0 (ix2 rr q)) (x1 (ix2 rr q)) := by
  unfold bodyVal
  rw [pay1_apply_4, pay12_apply, pay7_apply]
  simp only [slab, View.ld, slab_idx, Nat.zero_add]
  exact congrArg (acc (ix3 (0 : Fin 1) (4 : Fin 5) q) + ·)
    (block_of_slabs (fun rr : Fin 4096 => stat 4 (x0 (ix2 rr q)) (x1 (ix2 rr q))))
end Body

/-- One point's contribution, read at (0, k, q): the accumulator there plus the block's column sum of statistic k. -/
theorem bodyVal_apply (x0 x1 : Vec Ideal S4096x512 .f32) (acc : Vec Ideal S1x5x512 .f32) (k : Fin 5) (q : Fin 512) :
    bodyVal (F := Ideal) x0 x1 acc (ix3 (0 : Fin 1) k q)
      = acc (ix3 (0 : Fin 1) k q) + ∑ rr : Fin 4096, stat k (x0 (ix2 rr q)) (x1 (ix2 rr q)) := by
  fin_cases k
  · exact bodyVal_apply_0 x0 x1 acc q
  · exact bodyVal_apply_1 x0 x1 acc q
  · exact bodyVal_apply_2 x0 x1 acc q
  · exact bodyVal_apply_3 x0 x1 acc q
  · exact bodyVal_apply_4 x0 x1 acc q

/-- The zero block reads zero everywhere. -/
theorem zeroBlock_apply (k : Fin 5) (q : Fin 512) : zeroBlock (F := Ideal) (ix3 (0 : Fin 1) k q) = 0 := by
  show k0_pay2 (F := Ideal) (ix3 (0 : Fin 1) k q) = 0
  unfold k0_pay2
  rw [castUp_apply, zero_row_apply]

end Cert.KernelIdeal.HandValue

end
-- ==== Proof.KTail.lean ====
/-
  The host lines that follow the region, as one function of the region's output array. The region leaves a
  [2, 5, 512] array of per-half column sums. The later lines add the two halves; take the five rows apart
  (∑e, ∑e², ∑t, ∑t², ∑e·t per feature); and compute per feature the means m = S / n, the variances
  max (S2 - n·m·m) 0 / (n - 1) from the second moments, the covariance (Set - n·me·mt) / n, the correlation
  cov / ((√var_e + ε)(√var_t + ε)), and the loss ∑ (1 - correlation)². Each stage is written once here, with the
  program's literals (n = 65536, 1, ε, 0 as their f32 words); what the result buffer holds after the later
  lines, from any contents, is `tailFn` of what the output array held.
-/
import proofs.«104294_j30288109372144_2_alg».proof.Proof.Gen.KernelIdeal.Launch
import Idealize.ShloMosaic.Lib.StableHlo.Run

noncomputable section

namespace Cert.KernelIdeal.HandValue

open Cert.KernelIdeal Cert.KernelIdeal.Gen
open Idealize.ShloMosaic Idealize.ShloMosaic.TcCoe Idealize.ShloMosaic.StableHlo

variable {F : FTy → Type} [FloatOps F]

/-- A scalar literal spread over the 512 features. -/
def lit (w : BitVec 32) : FVec F S512 .f32 := broadcastInDim S512 ![] bcast_S_S512 (constant S_ .f32 w)

/-- The two halves added: the five column sums over the whole batch, one row each. -/
def halvesSum (v0 : FVec F S2x5x512 .f32) : FVec F S5x512 .f32 :=
  Host.reduceAdd v0 (constant S_ .f32 0x00000000#32) reducesTo_S2x5x512_S5x512_d0 h_S_

/-- Row 0 … row 4 of the five sums, each as a vector over the features. -/
def row0 (v1 : FVec F S5x512 .f32) : FVec F S512 .f32 :=
  shapeCast S512 (extractStridedSlice S1x512 ![0, 0] v1 slices_S5x512_S1x512_0_0) shapeCasts_S1x512_S512
def row1 (v1 : FVec F S5x512 .f32) : FVec F S512 .f32 :=
  shapeCast S512 (extractStridedSlice S1x512 ![1, 0] v1 slices_S5x512_S1x512_1_0) shapeCasts_S1x512_S512
def row2 (v1 : FVec F S5x512 .f32) : FVec F S512 .f32 :=
  shapeCast S512 (extractStridedSlice S1x512 ![2, 0] v1 slices_S5x512_S1x512_2_0) shapeCasts_S1x512_S512
def row3 (v1 : FVec F S5x512 .f32) : FVec F S512 .f32 :=
  shapeCast S512 (extractStridedSlice S1x512 ![3, 0] v1 slices_S5x512_S1x512_3_0) shapeCasts_S1x512_S512
def row4 (v1 : FVec F S5x512 .f32) : FVec F S512 .f32 :=
  shapeCast S512 (extractStridedSlice S1x512 ![4, 0] v1 slices_S5x512_S1x512_4_0) shapeCasts_S1x512_S512

/-- The mean of a feature from its sum: S / n. -/
def meanOf (S : FVec F S512 .f32) : FVec F S512 .f32 := Host.divf S (lit 0x47800000#32)

/-- n · a · b, feature by feature. -/
def nTimes (a b : FVec F S512 .f32) : FVec F S512 .f32 := mulf (mulf (lit 0x47800000#32) a) b

/-- The divisor n - 1, spread over the features. -/
def nMinusOne : FVec F S512 .f32 :=
  broadcastInDim S512 ![] bcast_S_S512 (subf (constant S_ .f32 0x47800000#32) (constant S_ .f32 0x3F800000#32))

/-- The variance from the first two moments, clamped at zero: max (S2 - n·m·m) 0 / (n - 1). -/
def varOf (S S2 : FVec F S512 .f32) : FVec F S512 .f32 :=
  Host.divf (maximumf (subf S2 (nTimes (meanOf S) (meanOf S))) (lit 0x00000000#32)) nMinusOne

/-- The covariance from the mixed moment: (Set - n·me·mt) / n. -/
def covOf (Se St Set : FVec F S512 .f32) : FVec F S512 .f32 :=
  Host.divf (subf Set (nTimes (meanOf Se) (meanOf St))) (lit 0x47800000#32)

/-- The correlation: cov / ((√var_e + ε)(√var_t + ε)). -/
def corrOf (Se Se2 St St2 Set : FVec F S512 .f32) : FVec F S512 .f32 :=
  Host.divf (covOf Se St Set)
    (mulf (addf (Host.sqrt (varOf Se Se2)) (lit 0x3089705F#32)) (addf (Host.sqrt (varOf St St2)) (lit 0x3089705F#32)))

/-- The loss: the sum over the features of (1 - correlation)². -/
def lossVec (c : FVec F S512 .f32) : FVec F S_ .f32 :=
  Host.reduceAdd (mulf (subf (lit 0x3F800000#32) c) (subf (lit 0x3F800000#32) c)) (constant S_ .f32 0x00000000#32)
    reducesTo_S512_S_d0 h_S_

/-- The later lines applied to the region's output array. -/
def tailFn (v0 : FVec F S2x5x512 .f32) : FVec F S_ .f32 :=
  lossVec (corrOf (row0 (halvesSum v0)) (row1 (halvesSum v0)) (row2 (halvesSum v0)) (row3 (halvesSum v0)) (row4 (halvesSum v0)))

set_option maxHeartbeats 4000000 in
/-- After the later lines, from any contents `W`, the result buffer holds `tailFn` of the output array's contents. -/
theorem tail_after (W : Valuation τ sig (Elt F)) :
    StableHlo.after (hostOps1 (F := F)) W (Proc.devRef .tc main_v51) = tailFn (W (Proc.devRef .tc main_v0)) := by
  after_results_simp
  rfl

end Cert.KernelIdeal.HandValue

end
-- ==== Proof.KValueB.lean ====
/-
  The statistics kernel's values, second part (at the ideal instance). For a feature q and a statistic k, the
  output's staging buffer holds after point 8·p + j of half p the sum of that statistic over the first
  (j + 1)·4096 rows of the half — by induction on j: a reset point starts from zero, a keeping point adds its
  block of 4096 rows to what the point before left. After the last point of a half that is the half's whole
  sum, which is what is written back: the output array ends holding, at (p, k, q), the sum of statistic k of
  column q over the 32768 rows of half p. The later lines then turn that array into the result.
-/
import proofs.«104294_j30288109372144_2_alg».proof.Proof.KValueA
import proofs.«104294_j30288109372144_2_alg».proof.Proof.KBodyAt
import proofs.«104294_j30288109372144_2_alg».proof.Proof.KTail
import proofs.«104294_j30288109372144_2_alg».proof.Proof.Blocks
import proofs.«104294_j30288109372144_2_alg».proof.Proof.Stat

set_option maxRecDepth 16384

noncomputable section

namespace Cert.KernelIdeal.HandValue

open Cert.KernelIdeal Cert.KernelIdeal.Gen Cert.KernelIdeal.Hand Cert.Barlow
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Row r of half p, feature q: statistic k of the two arguments' entries there. -/
def halfTerm (c : Dev nD) (p : Fin 2) (k : Fin 5) (q : Fin 512) : Fin 32768 → EReal := fun r =>
  stat k ((V m c main_arg0 : S65536x512.Idx → EReal) (ix2 ⟨p.val * 32768 + r.val, by have := p.isLt; have := r.isLt; omega⟩ q))
    ((V m c main_arg1 : S65536x512.Idx → EReal) (ix2 ⟨p.val * 32768 + r.val, by have := p.isLt; have := r.isLt; omega⟩ q))

/-- The recursion's value does not depend on how the position is spelled. -/
theorem outsAt0_congr (c : Dev nD) {n n' : ℕ} (e : n = n') (h : n < cfg0.N) (h' : n' < cfg0.N) :
    outsAt0 m c n h = outsAt0 m c n' h' := by subst e; rfl

/-- The block of point 8·p + j, read at local (rr, q), is row j·4096 + rr of half p. -/
theorem block_term (c : Dev nD) (p : Fin 2) (k : Fin 5) (q : Fin 512) (j : ℕ) (hj : j < 8) (h : p.val * 8 + j < cfg0.N)
    (rr : Fin 4096) :
    stat k ((iblk m c 0 ⟨p.val * 8 + j, h⟩ : Vec Ideal S4096x512 .f32) (ix2 rr q)) ((iblk m c 1 ⟨p.val * 8 + j, h⟩ : Vec Ideal S4096x512 .f32) (ix2 rr q))
      = halfTerm m c p k q ⟨j * 4096 + rr.val, by have := rr.isLt; omega⟩ := by
  have hp := p.isLt
  have hr := rr.isLt
  rw [iblk0_apply m c ⟨p.val * 8 + j, h⟩ rr q (by dsimp only; omega), iblk1_apply m c ⟨p.val * 8 + j, h⟩ rr q (by dsimp only; omega)]
  unfold halfTerm
  have e : (⟨(⟨p.val * 8 + j, h⟩ : Fin cfg0.N).val * 4096 + rr.val, by dsimp only; omega⟩ : Fin 65536)
      = ⟨p.val * 32768 + (j * 4096 + rr.val), by omega⟩ := Fin.ext (by dsimp only; omega)
  rw [e]

/-- After point 8·p + j the buffer holds, at (k, q), the half's running sum after j + 1 blocks. -/
theorem outsAt_closed (c : Dev nD) (p : Fin 2) (k : Fin 5) (q : Fin 512) :
    ∀ (j : ℕ) (hj : j < 8) (h : p.val * 8 + j < cfg0.N),
      (outsAt0 m c (p.val * 8 + j) h : Vec Ideal S1x5x512 .f32) (ix3 (0 : Fin 1) k q) = halfAcc (halfTerm m c p k q) j hj
  | 0, hj, h => by
    have h0 : (⟨p.val * 8 + 0, h⟩ : Fin cfg0.N).val % 8 = 0 := by dsimp only; omega
    rw [outsAt0_A m c ⟨p.val * 8 + 0, h⟩ h0, out_A, bodyVal_apply, zeroBlock_apply, halfAcc_zero]
    congr 1
    refine Finset.sum_congr rfl fun rr _ => ?_
    rw [block_term m c p k q 0 hj h rr]
    congr 1
    exact Fin.ext (by simp)
  | j + 1, hj, h => by
    have hB : ¬(⟨p.val * 8 + (j + 1), h⟩ : Fin cfg0.N).val % 8 = 0 := by dsimp only; omega
    rw [outsAt0_B m c ⟨p.val * 8 + (j + 1), h⟩ hB, out_B, bodyVal_apply, halfAcc_succ]
    congr 1
    · rw [outsAt0_congr m c (show (⟨p.val * 8 + (j + 1), h⟩ : Fin cfg0.N).val - 1 = p.val * 8 + j by dsimp only; omega) _ (by omega)]
      exact outsAt_closed c p k q j (by omega) (by omega)
    · refine Finset.sum_congr rfl fun rr _ => ?_
      exact block_term m c p k q (j + 1) hj h rr

/-- What the output array ends holding: at (p, k, q) the sum of statistic k of column q over half p. -/
def halves (c : Dev nD) : S2x5x512.Idx → EReal := fun i =>
  ∑ r : Fin 32768, halfTerm m c ⟨(i 0).val, (i 0).isLt⟩ ⟨(i 1).val, (i 1).isLt⟩ ⟨(i 2).val, (i 2).isLt⟩ r

theorem halves_apply (c : Dev nD) (p : Fin 2) (k : Fin 5) (q : Fin 512) :
    halves m c (ix3 p k q) = ∑ r : Fin 32768, halfTerm m c p k q r := rfl

/-- The output window's extents at every point: the whole [1, 5, 512] block. -/
theorem xsize_facts : ∀ t : Fin cfg0.N,
    win0_2.xsize (grid0.coords t) (0 : Fin 3) = 1 ∧ win0_2.xsize (grid0.coords t) (1 : Fin 3) = 5 ∧ win0_2.xsize (grid0.coords t) (2 : Fin 3) = 512 :=
  (by decide +kernel : ∀ t : Fin grid0.N,
    win0_2.xsize (grid0.coords t) (0 : Fin 3) = 1 ∧ win0_2.xsize (grid0.coords t) (1 : Fin 3) = 5 ∧ win0_2.xsize (grid0.coords t) (2 : Fin 3) = 512)

set_option maxRecDepth 200000 in
/-- What the last point of a half writes back is that half's block of `halves`. -/
theorem flushed_eq (c : Dev nD) (t : Fin cfg0.N) (hf : (cfg0.win 2).flush t = true) :
    (dats m 0 c).flushed 2 t = ((cfg0.win 2).blk t).view.read (Elt Ideal) (halves m c) := by
  have hN : cfg0.N = 16 := N_0
  have h7 : t.val % 8 = 7 := (flush0_2 t).mp hf
  have hlt := t.isLt
  have hp2 : t.val / 8 < 2 := by omega
  have hX : ∀ (k : Fin 5) (q : Fin 512), (outsAt0 m c t.val t.isLt : Vec Ideal S1x5x512 .f32) (ix3 (0 : Fin 1) k q)
      = ∑ r : Fin 32768, halfTerm m c ⟨t.val / 8, hp2⟩ k q r := by
    intro k q
    rw [outsAt0_congr m c (show t.val = (⟨t.val / 8, hp2⟩ : Fin 2).val * 8 + 7 by dsimp only; omega) t.isLt (by dsimp only; omega)]
    rw [outsAt_closed m c ⟨t.val / 8, hp2⟩ k q 7 (by omega) (by dsimp only; omega)]
    exact halfAcc_last _
  show (cfg0.win 2).cut (grid0.coords t) ((dats m 0 c).after 2 t) = _
  rw [after0_2]
  generalize outsAt0 m c t.val t.isLt = X at hX
  have hy : ∀ j : S1x5x512.Idx, (X : Vec Ideal S1x5x512 .f32) j
      = ∑ r : Fin 32768, halfTerm m c ⟨t.val / 8, hp2⟩ ⟨(j 1).val, (j 1).isLt⟩ ⟨(j 2).val, (j 2).isLt⟩ r := by
    intro j
    obtain ⟨u, k, q, rfl⟩ : ∃ (u : Fin 1) (k : Fin 5) (q : Fin 512), j = ix3 u k q := ⟨j 0, j 1, j 2, eq_ix3 j⟩
    obtain rfl : u = 0 := Subsingleton.elim _ _
    exact hX k q
  funext y
  rw [View.read_apply]
  have h0 : (y 0 : Nat) < 1 := (y 0).isLt
  have h1 : (y 1 : Nat) < 5 := (y 1).isLt
  have h2 : (y 2 : Nat) < 512 := (y 2).isLt
  obtain ⟨-, -, -, -, e0, e1, e2⟩ := idx_facts t
  have hi : ((cfg0.win 2).blk t).view.emb y
      = (ix3 (⟨t.val / 8, hp2⟩ : Fin 2) (⟨(y 1).val, h1⟩ : Fin 5) (⟨(y 2).val, h2⟩ : Fin 512) : S2x5x512.Idx) := by
    funext a
    apply Fin.ext
    match a with
    | ⟨0, _⟩ => show win0_2.index t 0 * 1 + 1 * (y 0).val = t.val / 8; rw [e0]; omega
    | ⟨1, _⟩ => show win0_2.index t 1 * 5 + 1 * (y 1).val = (y 1).val; rw [e1]; omega
    | ⟨2, _⟩ => show win0_2.index t 2 * 512 + 1 * (y 2).val = (y 2).val; rw [e2]; omega
  rw [hi, halves_apply]
  exact hy _

/-- So the output array ends holding `halves`: the two flushing points' blocks cover it. -/
theorem final_o (c : Dev nD) : (dats m 0 c).arrAt 2 cfg0.N = halves m c :=
  (dats m 0 c).arrAt_eq_of_cover 2 (halves m c) (flushed_eq m c) fun i => by
    have hN : cfg0.N = 16 := N_0
    have h0 : (i 0 : Nat) < 2 := (i 0).isLt
    have h1 : (i 1 : Nat) < 5 := (i 1).isLt
    have h2 : (i 2 : Nat) < 512 := (i 2).isLt
    have hlt : (i 0 : Nat) * 8 + 7 < cfg0.N := by omega
    refine ⟨⟨(i 0 : Nat) * 8 + 7, hlt⟩, (flush0_2 _).mpr (by dsimp only; omega), ?_⟩
    show i ∈ ((View.whole main_v0).slice (win0_2.rect ⟨(i 0 : Nat) * 8 + 7, hlt⟩)).set
    rw [View.set_slice_whole, Rect.mem_set_unit]
    intro a
    obtain ⟨x0, x1, x2⟩ := xsize_facts ⟨(i 0 : Nat) * 8 + 7, hlt⟩
    obtain ⟨-, -, -, -, e0, e1, e2⟩ := idx_facts ⟨(i 0 : Nat) * 8 + 7, hlt⟩
    match a with
    | ⟨0, _⟩ =>
      show win0_2.index _ 0 * win0_2.size 0 ≤ (i 0 : Nat) ∧ (i 0 : Nat) < win0_2.index _ 0 * win0_2.size 0 + win0_2.xsize (grid0.coords _) 0
      rw [e0, x0]; show ((i 0 : Nat) * 8 + 7) / 8 * 1 ≤ (i 0 : Nat) ∧ (i 0 : Nat) < ((i 0 : Nat) * 8 + 7) / 8 * 1 + 1; omega
    | ⟨1, _⟩ =>
      show win0_2.index _ 1 * win0_2.size 1 ≤ (i 1 : Nat) ∧ (i 1 : Nat) < win0_2.index _ 1 * win0_2.size 1 + win0_2.xsize (grid0.coords _) 1
      rw [e1, x1]; omega
    | ⟨2, _⟩ =>
      show win0_2.index _ 2 * win0_2.size 2 ≤ (i 2 : Nat) ∧ (i 2 : Nat) < win0_2.index _ 2 * win0_2.size 2 + win0_2.xsize (grid0.coords _) 2
      rw [e2, x2]; omega

/-- The run, read: the result buffer at the later lines' function of `halves`, the two arguments unchanged. -/
theorem run : θ_run defs (onTc (τ := τ) (main (F := Ideal))) ⟨m, fun _ => 0, ρ⟩ fun r => ∀ c : Dev nD,
      r.2.mem ((c.tc : Thread nD τ).loc main_v51) = tailFn (F := Ideal) (halves m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v51 (by decide)).trans (by
        unfold Pipeline.afterTail₀
        simp only [List.flatten_cons, List.flatten_nil, List.append_nil]
        rw [tail_after]
        exact congrArg tailFn ((Pipeline.withArrays_arr spec0 launch0.win.arr_inj c _ _ 2).trans (final_o m c))),
     ((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c)))⟩) (run_main m ρ)

end Cert.KernelIdeal.HandValue

end
-- ==== Proof.Spec.lean ====
/-
  The per-feature correlation behind the diagonal Barlow-twins loss, written two ways over the extended
  reals, and the loss built from it.

  For one feature (one column) with entries `e b`, `t b` over a batch of `R` rows:

  * from MOMENTS: with the five column sums  Se = ∑ e, Se2 = ∑ e², St = ∑ t, St2 = ∑ t², Set = ∑ e·t,
    the means  me = Se / n, mt = St / n,  the variances  max (Se2 - n·me·me) 0 / (n - 1)  (and the same for t),
    the covariance  (Set - n·me·mt) / n,  the correlation is
        cov / ((√var_e + ε) · (√var_t + ε));
  * CENTERED: with the deviations  e b - me,  the variance  (∑ (e b - me)²) / (n - 1),  each deviation divided
    by  (√var + ε),  the correlation is  (∑ (normalized e)·(normalized t)) / n.

  The loss is  zero + ∑ over features of (1 - correlation)².

  The scalars `n`, `one`, `zero`, `eps` and the divisor `nm1` are parameters, so that each program's own
  spelling of them can be put in; every quotient is the total division `Ideal.div`.
-/
import Idealize.ShloMosaic.PureOps.Ideal
import Idealize.ShloMosaic.Lib.ValueIdx

noncomputable section

open scoped BigOperators

namespace Cert.Barlow

open Idealize.ShloMosaic

/-- The correlation of one feature from its five column sums. -/
def corrMoments (n nm1 zero eps Se Se2 St St2 Set : EReal) : EReal :=
  Ideal.div (Ideal.div (Set - n * Ideal.div Se n * Ideal.div St n) n)
    ((Ideal.sqrt (Ideal.div (max (Se2 - n * Ideal.div Se n * Ideal.div Se n) zero) nm1) + eps)
      * (Ideal.sqrt (Ideal.div (max (St2 - n * Ideal.div St n * Ideal.div St n) zero) nm1) + eps))

/-- A column's deviations from its mean, each divided by (the square root of the centered variance, plus ε). -/
def normalized {R : ℕ} (n nm1 eps : EReal) (x : Fin R → EReal) (b : Fin R) : EReal :=
  Ideal.div (x b - Ideal.div (∑ b, x b) n)
    (Ideal.sqrt (Ideal.div (∑ b, (x b - Ideal.div (∑ b, x b) n) * (x b - Ideal.div (∑ b, x b) n)) nm1) + eps)

/-- The correlation of one feature from its centered, normalized columns. -/
def corrCentered {R : ℕ} (n nm1 eps : EReal) (e t : Fin R → EReal) : EReal :=
  Ideal.div (∑ b, normalized n nm1 eps e b * normalized n nm1 eps t b) n

/-- Column `j` of a rank-2 array. -/
def col {R C : ℕ} (x : (⟨2, ![R, C]⟩ : Shape).Idx → EReal) (j : Fin C) : Fin R → EReal :=
  fun b => x (ValueIdx.ix2 b j)

/-- The loss from the features' correlations. -/
def lossOf {C : ℕ} (zero one : EReal) (c : Fin C → EReal) : EReal :=
  zero + ∑ j, (one - c j) * (one - c j)

/-- The loss from moments: every feature's correlation from that column's five sums over the whole batch. -/
def lossMoments {R C : ℕ} (n nm1 zero one eps : EReal) (e t : (⟨2, ![R, C]⟩ : Shape).Idx → EReal) : EReal :=
  lossOf zero one fun j =>
    corrMoments n nm1 zero eps (∑ b, col e j b) (∑ b, col e j b * col e j b) (∑ b, col t j b)
      (∑ b, col t j b * col t j b) (∑ b, col e j b * col t j b)

/-- The loss from centered, normalized columns. -/
def lossCentered {R C : ℕ} (n nm1 zero one eps : EReal) (e t : (⟨2, ![R, C]⟩ : Shape).Idx → EReal) : EReal :=
  lossOf zero one fun j => corrCentered n nm1 eps (col e j) (col t j)

end Cert.Barlow

end
-- ==== Proof.KTailAt.lean ====
/-
  The host lines that follow the region, read at an index.

  The two halves added are, at row k and feature q, the zero word plus the two halves' entries; row k taken apart
  as a vector reads the array at (k, q); a literal spread over the features reads the literal; and every later stage
  (means, n·a·b, variances clamped at zero, covariance, correlation) is taken feature by feature, so at feature q it is
  the specification's correlation from the five column sums at q. The last line sums the squared differences from
  one over the features, from the zero word.
-/
import proofs.«104294_j30288109372144_2_alg».proof.Proof.KTail
import proofs.«104294_j30288109372144_2_alg».proof.Proof.Spec
import Idealize.ShloMosaic.Lib.IdealHost
import Idealize.ShloMosaic.Lib.Pipeline.Value

noncomputable section

open scoped BigOperators

namespace Cert.KernelIdeal.HandValue

open Idealize.ShloMosaic Idealize.ShloMosaic.ValueIdx Cert.KernelIdeal Cert.KernelIdeal.Gen

/-! ## Indices of a length-512 vector -/

/-- The indices of a length-512 vector are its coordinates. -/
def vecIdxEquiv : S512.Idx ≃ Fin 512 where
  toFun i := i 0
  invFun j := ix1 j
  left_inv i := (eq_ix1 i).symm
  right_inv _ := rfl

/-- A sum over the indices of a length-512 vector is the sum over its coordinates. -/
theorem sum_vec (f : S512.Idx → EReal) : ∑ i : S512.Idx, f i = ∑ j : Fin 512, f (ix1 j) :=
  (Equiv.sum_comp vecIdxEquiv.symm f).symm

/-! ## The two halves added, and the rows -/

theorem reduces_halves : Shape.Reduces S2x5x512 [0] S5x512 := by decide

/-- The two halves added, at row k and feature q: the zero word plus the two halves' entries. -/
theorem halvesSum_apply (P : FVec Ideal S2x5x512 .f32) (k : Fin 5) (q : Fin 512) :
    halvesSum P (ix2 k q) = 0 + ∑ p : Fin 2, P (ix3 p k q) := by
  unfold halvesSum
  rw [hostReduceAdd_apply, Ideal.hostReduceAdd_single _ reduces_halves, constant_apply, Ideal.ofBits_zero_f32]
  refine congrArg (fun s => (0 : EReal) + s) ?_
  refine Finset.sum_congr rfl fun p _ => congrArg P ?_
  funext a
  match a with
  | ⟨0, _⟩ => rfl
  | ⟨1, _⟩ => rfl
  | ⟨2, _⟩ => rfl

/-- A [1, 512] row made a vector reads the row at (0, q). -/
theorem unrow_apply (r : FVec Ideal S1x512 .f32) (q : Fin 512) :
    shapeCast S512 r shapeCasts_S1x512_S512 (ix1 q) = r (ix2 0 q) := by
  refine shapeCast_apply r shapeCasts_S1x512_S512 (ix1 q) (ix2 0 q) ?_
  rw [Shape.rowMajor_val_two, Shape.rowMajor_val_one]
  show (0 : Fin 1).val * 512 + q.val = q.val
  simp

/-- Row k of a [5, 512] array, cut out as a [1, 512] row, reads the array at (k, q). -/
theorem cut_apply (v : FVec Ideal S5x512 .f32) (k : Fin 5) (h : S5x512.Slices ![k.val, 0] S1x512) (q : Fin 512) :
    extractStridedSlice S1x512 ![k.val, 0] v h (ix2 0 q) = v (ix2 k q) := by
  refine extractStridedSlice_apply ![k.val, 0] v h (ix2 0 q) (ix2 k q) fun a => ?_
  match a with
  | ⟨0, _⟩ => rfl
  | ⟨1, _⟩ => show q.val = 0 + q.val; omega

theorem row0_apply (v : FVec Ideal S5x512 .f32) (q : Fin 512) : row0 v (ix1 q) = v (ix2 0 q) := by
  unfold row0; rw [unrow_apply]; exact cut_apply v 0 _ q
theorem row1_apply (v : FVec Ideal S5x512 .f32) (q : Fin 512) : row1 v (ix1 q) = v (ix2 1 q) := by
  unfold row1; rw [unrow_apply]; exact cut_apply v 1 _ q
theorem row2_apply (v : FVec Ideal S5x512 .f32) (q : Fin 512) : row2 v (ix1 q) = v (ix2 2 q) := by
  unfold row2; rw [unrow_apply]; exact cut_apply v 2 _ q
theorem row3_apply (v : FVec Ideal S5x512 .f32) (q : Fin 512) : row3 v (ix1 q) = v (ix2 3 q) := by
  unfold row3; rw [unrow_apply]; exact cut_apply v 3 _ q
theorem row4_apply (v : FVec Ideal S5x512 .f32) (q : Fin 512) : row4 v (ix1 q) = v (ix2 4 q) := by
  unfold row4; rw [unrow_apply]; exact cut_apply v 4 _ q

/-! ## The stages, feature by feature -/

/-- A literal spread over the features reads the literal. -/
theorem lit_apply (w : BitVec 32) (j : S512.Idx) : lit (F := Ideal) w j = Ideal.ofBits .f32 w := rfl

/-- The correlation stage at a feature is the specification's correlation from the five sums at that feature. -/
theorem corrOf_apply (Se Se2 St St2 Set : FVec Ideal S512 .f32) (j : S512.Idx) :
    corrOf Se Se2 St St2 Set j
      = Cert.Barlow.corrMoments (Ideal.ofBits .f32 0x47800000#32)
          (Ideal.ofBits .f32 0x47800000#32 - Ideal.ofBits .f32 0x3F800000#32) (Ideal.ofBits .f32 0x00000000#32)
          (Ideal.ofBits .f32 0x3089705F#32) (Se j) (Se2 j) (St j) (St2 j) (Set j) := rfl

/-! ## The later lines -/

/-- The later lines applied to the region's output array: the loss from the correlations from moments, each
    feature's five sums being the zero word plus the two halves' entries. -/
theorem tailFn_eq (P : FVec Ideal S2x5x512 .f32) :
    tailFn (F := Ideal) P = fun _ => Cert.Barlow.lossOf (C := 512) 0 (Ideal.ofBits .f32 0x3F800000#32)
      (fun q => Cert.Barlow.corrMoments (Ideal.ofBits .f32 0x47800000#32)
          (Ideal.ofBits .f32 0x47800000#32 - Ideal.ofBits .f32 0x3F800000#32) 0 (Ideal.ofBits .f32 0x3089705F#32)
          (0 + ∑ p : Fin 2, P (ix3 p (0 : Fin 5) q)) (0 + ∑ p : Fin 2, P (ix3 p (1 : Fin 5) q))
          (0 + ∑ p : Fin 2, P (ix3 p (2 : Fin 5) q)) (0 + ∑ p : Fin 2, P (ix3 p (3 : Fin 5) q))
          (0 + ∑ p : Fin 2, P (ix3 p (4 : Fin 5) q))) := by
  funext i
  unfold tailFn lossVec Cert.Barlow.lossOf
  rw [hostReduceAdd_apply, Ideal.hostReduceAdd_total _ (fun b => b.elim0), constant_apply, Ideal.ofBits_zero_f32, sum_vec]
  refine congrArg (fun s => (0 : EReal) + s) ?_
  refine Finset.sum_congr rfl fun q _ => ?_
  rw [mulf_apply, subf_apply, lit_apply, corrOf_apply, row0_apply, row1_apply, row2_apply, row3_apply, row4_apply,
    halvesSum_apply, halvesSum_apply, halvesSum_apply, halvesSum_apply, halvesSum_apply, Ideal.ofBits_zero_f32]

end Cert.KernelIdeal.HandValue

end
-- ==== Proof.RefRun.lean ====
/-
  The reference program's run, read back as one function of its two argument arrays.

  The program is a straight line of host operations once its calls are unfolded: the standard deviation of a
  column is a called function (the square root of a called variance, which ends in a called selection), and each
  call's operations are listed here at the place of the call, over that call's own buffers. Every weakly fair
  execution ends with the result buffer at the composition of the operations' functions over the two argument
  arrays; that composition is named here by stages: the column means, the deviations from them, the variance as the
  called function computes it (its own mean, its own deviations, their squares summed and divided), the square
  root, the normalized arrays, the vector of correlations, and the final sum.
-/
import proofs.«104294_j30288109372144_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

section Line

variable {F : FTy → Type} [FloatOps F]

/-- The 88 operations in order: the first column mean and deviations, the first standard deviation's 23 operations
    over the first call's buffers, the first normalized array; the same for the second argument; the products,
    their column sums, the correlations, and the sum of the squared differences from one. -/
abbrev ops : List (HloOp τ sig (Elt F)) :=
  [ nullary main_cst (constant S_ .f32 0x00000000#32),
    binary main_arg0 main_cst main_v0 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    nullary main_cst_0 (constant S_ .f32 0x47800000#32),
    unary main_cst_0 main_v1 (broadcastInDim S512 ![] bcast_S_S512 : (⟨S_, .f32⟩ : BufTy).Contents (Elt F) → (⟨S512, .f32⟩ : BufTy).Contents (Elt F)),
    binary main_v0 main_v1 main_v2 (Host.divf : (⟨S512, .f32⟩ : BufTy).Contents (Elt F) → (⟨S512, .f32⟩ : BufTy).Contents (Elt F) → (⟨S512, .f32⟩ : BufTy).Contents (Elt F)),
    unary main_v2 main_v3 (broadcastInDim S1x512 ![1] bcast_S512_S1x512_1 : (⟨S512, .f32⟩ : BufTy).Contents (Elt F) → (⟨S1x512, .f32⟩ : BufTy).Contents (Elt F)),
    unary main_v3 main_v4 (broadcastInDim S65536x512 ![0, 1] bcast_S1x512_S65536x512_0_1 : (⟨S1x512, .f32⟩ : BufTy).Contents (Elt F) → (⟨S65536x512, .f32⟩ : BufTy).Contents (Elt F)),
    binary main_arg0 main_v4 main_v5 (subf : (⟨S65536x512, .f32⟩ : BufTy).Contents (Elt F) → (⟨S65536x512, .f32⟩ : BufTy).Contents (Elt F) → (⟨S65536x512, .f32⟩ : BufTy).Contents (Elt F)),
    nullary main_c (constantI S_ 32 1#32),
    TRef.nullary main_call0.call0.cst (constant S_ .f32 0x00000000#32),
    TRef.binary (.of main_arg0) main_call0.call0.cst main_call0.call0.v0 (fun x v => Host.reduceAdd x v reducesTo_S65536x512_S512_d0 h_S_),
    TRef.unary main_call0.call0.v0 main_call0.call0.v1 (broadcastInDim S1x512 ![1] bcast_S512_S1x512_1),
    TRef.nullary main_call0.call0.cst_0 (constant S_ .f32 0x47800000#32),
    TRef.unary main_call0.call0.cst_0 main_call0.call0.v2 (broadcastInDim S1x512 ![] bcast_S_S1x512),
    TRef.binary main_call0.call0.v1 main_call0.call0.v2 main_call0.call0.v3 Host.divf,
    TRef.unary main_call0.call0.v3 main_call0.call0.v4 (broadcastInDim S65536x512 ![0, 1] bcast_S1x512_S65536x512_0_1),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x47800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S65536x512_S512_d0 h_S_),
    TRef.unary main_call0.call0.v8 main_call0.call0.v10 (broadcastInDim S512 ![] bcast_S_S512),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S512 ![] bcast_S_S512),
    TRef.ternary main_call0.call0.v12 main_call0.call0.v11 main_call0.call0.call0.v1 main_call0.call0.call0.v2 (fun p a b => select (broadcastInDim S512 ![] bcast_S_S512 p) a b),
    TRef.unary main_call0.call0.call0.v2 main_call0.v1 Host.sqrt,
    nullary main_cst_1 (constant S_ .f32 0x3089705F#32),
    unary main_cst_1 main_v7 (broadcastInDim S512 ![] bcast_S_S512 : (⟨S_, .f32⟩ : BufTy).Contents (Elt F) → (⟨S512, .f32⟩ : BufTy).Contents (Elt F)),
    binary main_v6 main_v7 main_v8 (addf : (⟨S512, .f32⟩ : BufTy).Contents (Elt F) → (⟨S512, .f32⟩ : BufTy).Contents (Elt F) → (⟨S512, .f32⟩ : BufTy).Contents (Elt F)),
    unary main_v8 main_v9 (broadcastInDim S1x512 ![1] bcast_S512_S1x512_1 : (⟨S512, .f32⟩ : BufTy).Contents (Elt F) → (⟨S1x512, .f32⟩ : BufTy).Contents (Elt F)),
    unary main_v9 main_v10 (broadcastInDim S65536x512 ![0, 1] bcast_S1x512_S65536x512_0_1 : (⟨S1x512, .f32⟩ : BufTy).Contents (Elt F) → (⟨S65536x512, .f32⟩ : BufTy).Contents (Elt F)),
    binary main_v5 main_v10 main_v11 (Host.divf : (⟨S65536x512, .f32⟩ : BufTy).Contents (Elt F) → (⟨S65536x512, .f32⟩ : BufTy).Contents (Elt F) → (⟨S65536x512, .f32⟩ : BufTy).Contents (Elt F)),
    nullary main_cst_2 (constant S_ .f32 0x00000000#32),
    binary main_arg1 main_cst_2 main_v12 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    nullary main_cst_3 (constant S_ .f32 0x47800000#32),
    unary main_cst_3 main_v13 (broadcastInDim S512 ![] bcast_S_S512 : (⟨S_, .f32⟩ : BufTy).Contents (Elt F) → (⟨S512, .f32⟩ : BufTy).Contents (Elt F)),
    binary main_v12 main_v13 main_v14 (Host.divf : (⟨S512, .f32⟩ : BufTy).Contents (Elt F) → (⟨S512, .f32⟩ : BufTy).Contents (Elt F) → (⟨S512, .f32⟩ : BufTy).Contents (Elt F)),
    unary main_v14 main_v15 (broadcastInDim S1x512 ![1] bcast_S512_S1x512_1 : (⟨S512, .f32⟩ : BufTy).Contents (Elt F) → (⟨S1x512, .f32⟩ : BufTy).Contents (Elt F)),
    unary main_v15 main_v16 (broadcastInDim S65536x512 ![0, 1] bcast_S1x512_S65536x512_0_1 : (⟨S1x512, .f32⟩ : BufTy).Contents (Elt F) → (⟨S65536x512, .f32⟩ : BufTy).Contents (Elt F)),
    binary main_arg1 main_v16 main_v17 (subf : (⟨S65536x512, .f32⟩ : BufTy).Contents (Elt F) → (⟨S65536x512, .f32⟩ : BufTy).Contents (Elt F) → (⟨S65536x512, .f32⟩ : BufTy).Contents (Elt F)),
    nullary main_c_4 (constantI S_ 32 1#32),
    TRef.nullary main_call1.call0.cst (constant S_ .f32 0x00000000#32),
    TRef.binary (.of main_arg1) main_call1.call0.cst main_call1.call0.v0 (fun x v => Host.reduceAdd x v reducesTo_S65536x512_S512_d0 h_S_),
    TRef.unary main_call1.call0.v0 main_call1.call0.v1 (broadcastInDim S1x512 ![1] bcast_S512_S1x512_1),
    TRef.nullary main_call1.call0.cst_0 (constant S_ .f32 0x47800000#32),
    TRef.unary main_call1.call0.cst_0 main_call1.call0.v2 (broadcastInDim S1x512 ![] bcast_S_S1x512),
    TRef.binary main_call1.call0.v1 main_call1.call0.v2 main_call1.call0.v3 Host.divf,
    TRef.unary main_call1.call0.v3 main_call1.call0.v4 (broadcastInDim S65536x512 ![0, 1] bcast_S1x512_S65536x512_0_1),
    TRef.binary (.of main_arg1) main_call1.call0.v4 main_call1.call0.v5 subf,
    TRef.binary main_call1.call0.v5 main_call1.call0.v5 main_call1.call0.v6 mulf,
    TRef.unary (.of main_c_4) main_call1.call0.v7 (sitofp .f32),
    TRef.nullary main_call1.call0.cst_1 (constant S_ .f32 0x47800000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S65536x512_S512_d0 h_S_),
    TRef.unary main_call1.call0.v8 main_call1.call0.v10 (broadcastInDim S512 ![] bcast_S_S512),
    TRef.binary main_call1.call0.v9 main_call1.call0.v10 main_call1.call0.v11 Host.divf,
    TRef.nullary main_call1.call0.cst_3 (constant S_ .f32 0x00000000#32),
    TRef.binary main_call1.call0.v8 main_call1.call0.cst_3 main_call1.call0.v12 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S512 ![] bcast_S_S512),
    TRef.ternary main_call1.call0.v12 main_call1.call0.v11 main_call1.call0.call0.v1 main_call1.call0.call0.v2 (fun p a b => select (broadcastInDim S512 ![] bcast_S_S512 p) a b),
    TRef.unary main_call1.call0.call0.v2 main_call1.v1 Host.sqrt,
    nullary main_cst_5 (constant S_ .f32 0x3089705F#32),
    unary main_cst_5 main_v19 (broadcastInDim S512 ![] bcast_S_S512 : (⟨S_, .f32⟩ : BufTy).Contents (Elt F) → (⟨S512, .f32⟩ : BufTy).Contents (Elt F)),
    binary main_v18 main_v19 main_v20 (addf : (⟨S512, .f32⟩ : BufTy).Contents (Elt F) → (⟨S512, .f32⟩ : BufTy).Contents (Elt F) → (⟨S512, .f32⟩ : BufTy).Contents (Elt F)),
    unary main_v20 main_v21 (broadcastInDim S1x512 ![1] bcast_S512_S1x512_1 : (⟨S512, .f32⟩ : BufTy).Contents (Elt F) → (⟨S1x512, .f32⟩ : BufTy).Contents (Elt F)),
    unary main_v21 main_v22 (broadcastInDim S65536x512 ![0, 1] bcast_S1x512_S65536x512_0_1 : (⟨S1x512, .f32⟩ : BufTy).Contents (Elt F) → (⟨S65536x512, .f32⟩ : BufTy).Contents (Elt F)),
    binary main_v17 main_v22 main_v23 (Host.divf : (⟨S65536x512, .f32⟩ : BufTy).Contents (Elt F) → (⟨S65536x512, .f32⟩ : BufTy).Contents (Elt F) → (⟨S65536x512, .f32⟩ : BufTy).Contents (Elt F)),
    binary main_v11 main_v23 main_v24 (mulf : (⟨S65536x512, .f32⟩ : BufTy).Contents (Elt F) → (⟨S65536x512, .f32⟩ : BufTy).Contents (Elt F) → (⟨S65536x512, .f32⟩ : BufTy).Contents (Elt F)),
    nullary main_cst_6 (constant S_ .f32 0x00000000#32),
    binary main_v24 main_cst_6 main_v25 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    nullary main_cst_7 (constant S_ .f32 0x47800000#32),
    unary main_cst_7 main_v26 (broadcastInDim S512 ![] bcast_S_S512 : (⟨S_, .f32⟩ : BufTy).Contents (Elt F) → (⟨S512, .f32⟩ : BufTy).Contents (Elt F)),
    binary main_v25 main_v26 main_v27 (Host.divf : (⟨S512, .f32⟩ : BufTy).Contents (Elt F) → (⟨S512, .f32⟩ : BufTy).Contents (Elt F) → (⟨S512, .f32⟩ : BufTy).Contents (Elt F)),
    nullary main_cst_8 (constant S_ .f32 0x3F800000#32),
    unary main_cst_8 main_v28 (broadcastInDim S512 ![] bcast_S_S512 : (⟨S_, .f32⟩ : BufTy).Contents (Elt F) → (⟨S512, .f32⟩ : BufTy).Contents (Elt F)),
    binary main_v28 main_v27 main_v29 (subf : (⟨S512, .f32⟩ : BufTy).Contents (Elt F) → (⟨S512, .f32⟩ : BufTy).Contents (Elt F) → (⟨S512, .f32⟩ : BufTy).Contents (Elt F)),
    binary main_v29 main_v29 main_v30 (mulf : (⟨S512, .f32⟩ : BufTy).Contents (Elt F) → (⟨S512, .f32⟩ : BufTy).Contents (Elt F) → (⟨S512, .f32⟩ : BufTy).Contents (Elt F)),
    nullary main_cst_9 (constant S_ .f32 0x00000000#32),
    binary main_v30 main_cst_9 main_v31 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)) ]

set_option maxRecDepth 8192 in
/-- The program is that straight line: the called functions unfolded at their calls (sequencing computes). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., nullary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., nullary_bufs_sub .., unary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., nullary_bufs_sub .., unary_bufs_sub ..,
    binary_bufs_sub .., binary_bufs_sub .., nullary_bufs_sub .., binary_bufs_sub ..⟩

end Line

/-! ## The composed term, by stages (at the ideal values) -/

/-- A [65536, 512] array, a [512] vector, a [1, 512] row and a scalar of extended reals. -/
abbrev Mat : Type := FVec Ideal S65536x512 .f32
abbrev Vec512 : Type := FVec Ideal S512 .f32
abbrev Row512 : Type := FVec Ideal S1x512 .f32
abbrev Sca : Type := FVec Ideal S_ .f32

/-- The column sums from the zero word. -/
def colSum (x : Mat) : Vec512 :=
  Host.reduceAdd x (constant S_ .f32 0x00000000#32 : Sca) reducesTo_S65536x512_S512_d0 h_S_

/-- The column means: the column sums divided by the batch size. -/
def colMean (x : Mat) : Vec512 :=
  Host.divf (colSum x) (broadcastInDim S512 ![] bcast_S_S512 (constant S_ .f32 0x47800000#32 : Sca))

/-- A vector spread over the rows of a [65536, 512] array. -/
def spread (v : Vec512) : Mat :=
  broadcastInDim S65536x512 ![0, 1] bcast_S1x512_S65536x512_0_1 (broadcastInDim S1x512 ![1] bcast_S512_S1x512_1 v)

/-- The deviations from the column means. -/
def centered (x : Mat) : Mat := subf x (spread (colMean x))

/-- The called variance's own mean: the column sums made a row, divided by a row of the batch size. -/
def varMean (x : Mat) : Row512 :=
  Host.divf (broadcastInDim S1x512 ![1] bcast_S512_S1x512_1 (colSum x))
    (broadcastInDim S1x512 ![] bcast_S_S1x512 (constant S_ .f32 0x47800000#32 : Sca))

/-- The called variance's own deviations. -/
def varCentered (x : Mat) : Mat :=
  subf x (broadcastInDim S65536x512 ![0, 1] bcast_S1x512_S65536x512_0_1 (varMean x))

/-- The divisor of the variance as a scalar array: the batch size minus the converted integer one. -/
def nm1Arr : Sca := subf (constant S_ .f32 0x47800000#32 : Sca) (sitofp .f32 (constantI S_ 32 1#32))

/-- The sum of the squared deviations over the divisor. -/
def varRaw (x : Mat) : Vec512 :=
  Host.divf (colSum (mulf (varCentered x) (varCentered x))) (broadcastInDim S512 ![] bcast_S_S512 nm1Arr)

/-- The called variance: that quotient where the divisor is positive, the not-a-number word elsewhere. -/
def varOf (x : Mat) : Vec512 :=
  select (broadcastInDim S512 ![] bcast_S_S512 (cmpf .ogt nm1Arr (constant S_ .f32 0x00000000#32 : Sca)))
    (varRaw x) (broadcastInDim S512 ![] bcast_S_S512 (id (constant S_ .f32 0x7FC00000#32 : Sca)))

/-- The standard deviation. -/
def stdOf (x : Mat) : Vec512 := Host.sqrt (varOf x)

/-- The normalized array: the deviations over (the standard deviation plus ε). -/
def normed (x : Mat) : Mat :=
  Host.divf (centered x)
    (spread (addf (stdOf x) (broadcastInDim S512 ![] bcast_S_S512 (constant S_ .f32 0x3089705F#32 : Sca))))

/-- The correlations: the column sums of the products over the batch size. -/
def corrVec (e t : Mat) : Vec512 :=
  Host.divf (colSum (mulf (normed e) (normed t)))
    (broadcastInDim S512 ![] bcast_S_S512 (constant S_ .f32 0x47800000#32 : Sca))

/-- One minus the correlations. -/
def oneMinus (e t : Mat) : Vec512 :=
  subf (broadcastInDim S512 ![] bcast_S_S512 (constant S_ .f32 0x3F800000#32 : Sca)) (corrVec e t)

/-- The program's result: the sum, from the zero word, of the squares of one minus the correlations. -/
def refOut (e t : Mat) : Sca :=
  Host.reduceAdd (mulf (oneMinus e t) (oneMinus e t)) (constant S_ .f32 0x00000000#32 : Sca) reducesTo_S512_S_d0 h_S_

set_option maxRecDepth 8192 in
set_option maxHeartbeats 1600000 in
/-- The contents of the result buffer after the line are the composed term of the two arguments' contents. -/
theorem out_eq (V : Valuation τ sig (Elt Ideal)) :
    after (ops (F := Ideal)) V (main_v31 : DevRef τ sig)
      = refOut (V (main_arg0 : DevRef τ sig)) (V (main_arg1 : DevRef τ sig)) := by
  after_results_simp
  rfl

set_option maxHeartbeats 800000 in
/-- The first argument's buffer is written by no operation. -/
theorem arg0_eq (V : Valuation τ sig (Elt Ideal)) :
    after (ops (F := Ideal)) V (main_arg0 : DevRef τ sig) = V (main_arg0 : DevRef τ sig) := by
  after_results_simp

set_option maxHeartbeats 800000 in
/-- The second argument's buffer is written by no operation. -/
theorem arg1_eq (V : Valuation τ sig (Elt Ideal)) :
    after (ops (F := Ideal)) V (main_arg1 : DevRef τ sig) = V (main_arg1 : DevRef τ sig) := by
  after_results_simp

/-- On every device, from any memory with zero counters: every weakly fair execution of the program terminates with
    the result buffer at the composed term of the two arguments' launch contents, and the arguments unchanged. -/
theorem run0 (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v31).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.Consts.lean ====
/-
  The float constants of the two programs, as the extended reals their 32-bit patterns denote when floats are
  read as extended reals. A pattern with sign bit 0, biased exponent E (neither 0 nor 255) and trailing
  significand T denotes the real number (2^23 + T) · 2^(E - 127 - 23):

    0x47800000   E = 143, T = 0        2^16 = 65536          (the number of rows)
    0x3F800000   E = 127, T = 0        1
    0x3089705F   E = 97,  T = 618591   9007199 · 2^(-53)     (about 1e-9; all that is used is that it is a
                                                              positive real)

  and the signed integer 1 converted to a float is the real number 1 (the conversion reads the integer exactly).
-/
import Idealize.ShloMosaic.PureOps.Ideal

noncomputable section

namespace Cert.Barlow

open Idealize.ShloMosaic

/-- The pattern of \`65536.0\` denotes the real \`65536\`. -/
theorem ofBits_n : Ideal.ofBits .f32 0x47800000#32 = ((65536 : ℝ) : EReal) := by
  simp [Ideal.ofBits, Ideal.ieee, -EReal.coe_mul]; norm_num

/-- The pattern of \`1.0\` denotes the real \`1\`. -/
theorem ofBits_one : Ideal.ofBits .f32 0x3F800000#32 = ((1 : ℝ) : EReal) := by
  simp [Ideal.ofBits, Ideal.ieee, -EReal.coe_mul]; norm_num

/-- The pattern of the small constant ε denotes a positive real. -/
theorem ofBits_eps : ∃ εr : ℝ, 0 < εr ∧ Ideal.ofBits .f32 0x3089705F#32 = (εr : EReal) := by
  refine ⟨((2 ^ 23 + 618591 : ℕ) : ℝ) * (2 : ℝ) ^ ((97 : ℤ) - 127 - 23), by positivity, ?_⟩
  simp [Ideal.ofBits, Ideal.ieee, -EReal.coe_mul]

/-- The signed 32-bit integer \`1\`, converted to a float, is the real \`1\`. -/
theorem sitofp_one : FloatOps.sitofp (F := Ideal) .f32 (1#32 : BitVec 32) = ((1 : ℝ) : EReal) := by
  show ((((1#32 : BitVec 32).toInt : ℤ) : ℝ) : EReal) = ((1 : ℝ) : EReal)
  simp

/-- The same for a constant array of the integer \`1\`: every entry of its conversion is the real \`1\`. -/
theorem sitofp_constantI_one (s : Shape) :
    (sitofp .f32 (constantI s 32 1#32) : FVec Ideal s .f32) = fun _ => ((1 : ℝ) : EReal) := by
  funext i
  exact sitofp_one

end Cert.Barlow

end
-- ==== Proof.RefRead.lean ====
/-
  The reference's composed term, read at an index.

  Each stage of the composed term is read at its coordinates: a column sum from the zero word is the plain sum down
  the column; a vector made a row and spread over the rows reads the vector at the column; a scalar spread over any
  shape reads the scalar; quotients, differences, products and square roots are taken entry by entry; and the
  selection inside the called variance takes its first branch, because the divisor (the batch size minus one) is
  positive. Put together, entry (b, j) of a normalized array is the specification's normalized column j at b, entry
  j of the correlation vector is the specification's centered correlation of the two columns j, and the result is the
  specification's centered loss.
-/
import proofs.«104294_j30288109372144_2_alg».proof.Proof.RefRun
import proofs.«104294_j30288109372144_2_alg».proof.Proof.Spec
import proofs.«104294_j30288109372144_2_alg».proof.Proof.Consts
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

/-! ## The scalars -/

/-- The batch size as the program spells it. -/
abbrev nW : EReal := Ideal.ofBits .f32 0x47800000#32
/-- One as the program spells it. -/
abbrev oneW : EReal := Ideal.ofBits .f32 0x3F800000#32
/-- The small constant ε as the program spells it. -/
abbrev epsW : EReal := Ideal.ofBits .f32 0x3089705F#32

/-- the reference's own spelling of the divisor n − 1 -/
def nm1 : EReal := Ideal.ofBits .f32 0x47800000#32 - FloatOps.sitofp (F := Ideal) .f32 (1#32 : BitVec 32)

theorem nm1_eq : nm1 = (((65536 : ℝ) - 1 : ℝ) : EReal) := by
  unfold nm1
  rw [Cert.Barlow.ofBits_n, Cert.Barlow.sitofp_one, ← EReal.coe_sub]

/-- The divisor array holds the divisor. -/
theorem nm1Arr_apply (i : S_.Idx) : nm1Arr i = nm1 := rfl

/-- The divisor is positive, so the comparison inside the called variance is true. -/
theorem cmp_nm1 : FloatOps.cmpf (F := Ideal) .ogt nm1 (Ideal.ofBits .f32 0x00000000#32) = 1#1 := by
  show Ideal.cmp .ogt nm1 (Ideal.ofBits .f32 0x00000000#32) = 1#1
  have h : (0 : EReal) < nm1 := by
    rw [nm1_eq]; exact EReal.coe_pos.mpr (by norm_num)
  unfold Ideal.cmp
  rw [Ideal.ofBits_zero_f32]
  simp only [h, decide_true]
  rfl

/-! ## Sums down a column, rows, spreads -/

theorem reduces_cols : Shape.Reduces S65536x512 [0] S512 := by decide

/-- The indices of a length-512 vector are its coordinates. -/
def vecIdxEquiv : S512.Idx ≃ Fin 512 where
  toFun i := i 0
  invFun j := ix1 j
  left_inv i := (eq_ix1 i).symm
  right_inv _ := rfl

/-- A sum over the indices of a length-512 vector is the sum over its coordinates. -/
theorem sum_vec (f : S512.Idx → EReal) : ∑ i : S512.Idx, f i = ∑ j : Fin 512, f (ix1 j) :=
  (Equiv.sum_comp vecIdxEquiv.symm f).symm

/-- A column sum from the zero word is the plain sum down the column. -/
theorem colSum_apply (x : Mat) (j : Fin 512) : colSum x (ix1 j) = ∑ b : Fin 65536, x (ix2 b j) := by
  unfold colSum
  rw [hostReduceAdd_apply, Ideal.hostReduceAdd_single _ reduces_cols, constant_apply, Ideal.ofBits_zero_f32, zero_add]
  refine Finset.sum_congr rfl fun b _ => congrArg x ?_
  funext a
  match a with
  | ⟨0, _⟩ => rfl
  | ⟨1, _⟩ => rfl

/-- A vector made a row reads the vector at the column. -/
theorem row_apply {α : Type} (v : S512.Idx → α) (j : Fin 512) :
    broadcastInDim S1x512 ![1] bcast_S512_S1x512_1 v (ix2 0 j) = v (ix1 j) := by
  refine broadcastInDim_apply ![1] bcast_S512_S1x512_1 v (ix2 0 j) (ix1 j) fun a => ?_
  match a with
  | ⟨0, _⟩ => rfl

/-- A row spread over the rows reads the row at the column. -/
theorem rows_apply {α : Type} (r : S1x512.Idx → α) (b : Fin 65536) (j : Fin 512) :
    broadcastInDim S65536x512 ![0, 1] bcast_S1x512_S65536x512_0_1 r (ix2 b j) = r (ix2 0 j) := by
  refine broadcastInDim_apply ![0, 1] bcast_S1x512_S65536x512_0_1 r (ix2 b j) (ix2 0 j) fun a => ?_
  match a with
  | ⟨0, _⟩ => rfl
  | ⟨1, _⟩ => rfl

/-- A vector spread over the rows of the array reads the vector at the column. -/
theorem spread_apply (v : Vec512) (b : Fin 65536) (j : Fin 512) : spread v (ix2 b j) = v (ix1 j) := by
  unfold spread
  rw [rows_apply, row_apply]

/-! ## The stages -/

theorem colMean_apply (x : Mat) (j : Fin 512) :
    colMean x (ix1 j) = Ideal.div (∑ b : Fin 65536, x (ix2 b j)) nW := by
  unfold colMean
  rw [hostDivf_apply, colSum_apply, broadcastInDim_scalar_apply, constant_apply]

theorem centered_apply (x : Mat) (b : Fin 65536) (j : Fin 512) :
    centered x (ix2 b j) = x (ix2 b j) - Ideal.div (∑ b : Fin 65536, x (ix2 b j)) nW := by
  unfold centered
  rw [subf_apply, spread_apply, colMean_apply]

theorem varMean_apply (x : Mat) (j : Fin 512) :
    varMean x (ix2 0 j) = Ideal.div (∑ b : Fin 65536, x (ix2 b j)) nW := by
  unfold varMean
  rw [hostDivf_apply, row_apply, colSum_apply, broadcastInDim_scalar_apply, constant_apply]

theorem varCentered_apply (x : Mat) (b : Fin 65536) (j : Fin 512) :
    varCentered x (ix2 b j) = x (ix2 b j) - Ideal.div (∑ b : Fin 65536, x (ix2 b j)) nW := by
  unfold varCentered
  rw [subf_apply, rows_apply, varMean_apply]

theorem varRaw_apply (x : Mat) (j : Fin 512) :
    varRaw x (ix1 j)
      = Ideal.div (∑ b : Fin 65536, (x (ix2 b j) - Ideal.div (∑ b : Fin 65536, x (ix2 b j)) nW)
          * (x (ix2 b j) - Ideal.div (∑ b : Fin 65536, x (ix2 b j)) nW)) nm1 := by
  unfold varRaw
  rw [hostDivf_apply, colSum_apply, broadcastInDim_scalar_apply, nm1Arr_apply]
  refine congrArg (fun s => Ideal.div s nm1) ?_
  refine Finset.sum_congr rfl fun b _ => ?_
  rw [mulf_apply, varCentered_apply]

theorem varOf_apply (x : Mat) (j : Fin 512) : varOf x (ix1 j) = varRaw x (ix1 j) := by
  unfold varOf
  rw [select_apply, broadcastInDim_scalar_apply, cmpf_apply, nm1Arr_apply, constant_apply, cmp_nm1, select_one]

theorem stdOf_apply (x : Mat) (j : Fin 512) : stdOf x (ix1 j) = Ideal.sqrt (varRaw x (ix1 j)) := by
  unfold stdOf
  show FloatOps.hostUnary .sqrt (varOf x (ix1 j)) = _
  rw [varOf_apply]
  rfl

theorem normed_apply (x : Mat) (b : Fin 65536) (j : Fin 512) :
    normed x (ix2 b j) = Cert.Barlow.normalized nW nm1 epsW (Cert.Barlow.col x j) b := by
  unfold normed
  rw [hostDivf_apply, centered_apply, spread_apply, addf_apply, stdOf_apply, varRaw_apply, broadcastInDim_scalar_apply,
    constant_apply]
  rfl

theorem corrVec_apply (e t : Mat) (j : Fin 512) :
    corrVec e t (ix1 j) = Cert.Barlow.corrCentered nW nm1 epsW (Cert.Barlow.col e j) (Cert.Barlow.col t j) := by
  unfold corrVec Cert.Barlow.corrCentered
  rw [hostDivf_apply, colSum_apply, broadcastInDim_scalar_apply, constant_apply]
  refine congrArg (fun s => Ideal.div s nW) ?_
  refine Finset.sum_congr rfl fun b _ => ?_
  rw [mulf_apply, normed_apply, normed_apply]

theorem oneMinus_apply (e t : Mat) (j : Fin 512) :
    oneMinus e t (ix1 j) = oneW - Cert.Barlow.corrCentered nW nm1 epsW (Cert.Barlow.col e j) (Cert.Barlow.col t j) := by
  unfold oneMinus
  rw [subf_apply, broadcastInDim_scalar_apply, constant_apply, corrVec_apply]

/-- The program's result is the specification's centered loss of the two arguments. -/
theorem refOut_eq (e t : Mat) :
    refOut e t = fun _ => Cert.Barlow.lossCentered (R := 65536) (C := 512) nW nm1 0 oneW epsW e t := by
  funext i
  unfold refOut Cert.Barlow.lossCentered Cert.Barlow.lossOf
  rw [hostReduceAdd_apply, Ideal.hostReduceAdd_total _ (fun b => b.elim0), constant_apply, Ideal.ofBits_zero_f32, sum_vec]
  refine congrArg (fun s => (0 : EReal) + s) ?_
  refine Finset.sum_congr rfl fun j _ => ?_
  rw [mulf_apply, oneMinus_apply]

/-! ## The run -/

/-- On every device, from any memory with zero counters: every weakly fair execution of the reference terminates with
    its result buffer at the specification's centered loss of the two arguments' launch contents (at the program's own
    spellings of the batch size, the divisor, one and ε), and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
          = (fun _ => Cert.Barlow.lossCentered (R := 65536) (C := 512) (Ideal.ofBits .f32 0x47800000#32) nm1 0
               (Ideal.ofBits .f32 0x3F800000#32) (Ideal.ofBits .f32 0x3089705F#32)
               (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refOut_eq _ _), (h c).2.1, (h c).2.2⟩) (run0 m ρ)

end Cert.ReferenceIdeal.RefValue

end
-- ==== Proof.Algebra.lean ====
/-
  The correlation of one feature computed from five column sums equals the correlation computed from the
  centered, normalized columns, as soon as every entry is (the image of) a real number; and hence the two
  losses agree.

  Write n = R for the number of rows (R ≥ 2), m(f) = (∑ f) / n for the mean of a real column f, and
      D(f) = ∑ (f b - m(f))²,        d(f) = √(D(f) / (n - 1)) + ε        (ε > 0, so d(f) > 0).
  Over the reals
      ∑ (f b - m(f)) (g b - m(g)) = ∑ f b g b - n m(f) m(g)                                   (cross)
  (expand the product, use ∑ f = n m(f)); with g = f this gives  D(f) = ∑ f² - n m(f)², and since D(f) is a
  sum of squares it is ≥ 0, so the clamp  max (∑ f² - n m(f)²) 0  is the identity. Finally
      ∑ ((f b - m(f)) / d(f)) ((g b - m(g)) / d(g)) / n  =  ((∑ (f b - m(f)) (g b - m(g))) / n) / (d(f) d(g)),
  because the two divisors are nonzero constants. Each quotient by a nonzero real y is the product with 1 / y,
  the square root of a nonnegative real is the real square root, and the coercion ℝ → EReal commutes with
  +, -, ·, finite sums and max; so both sides are the image of one and the same real number.
  With an infinite entry the two sides differ, which is why real-valuedness is assumed.
-/
import proofs.«104294_j30288109372144_2_alg».proof.Proof.Spec
import Mathlib.Tactic.Ring
import Mathlib.Tactic.FieldSimp
import Mathlib.Tactic.Positivity
import Mathlib.Algebra.BigOperators.Ring.Finset

noncomputable section

open scoped BigOperators

namespace Cert.Barlow

open Idealize.ShloMosaic

/-! ### Real columns -/

/-- The mean of a real column of \`R\` entries. -/
def mean {R : ℕ} (f : Fin R → ℝ) : ℝ := (∑ b, f b) * (1 / (R : ℝ))

/-- The sum of the squared deviations from the mean. -/
def dev2 {R : ℕ} (f : Fin R → ℝ) : ℝ := ∑ b, (f b - mean f) * (f b - mean f)

/-- The divisor of a normalized column: the square root of the centered variance, plus ε. -/
def den {R : ℕ} (ε : ℝ) (f : Fin R → ℝ) : ℝ := Real.sqrt (dev2 f * (1 / ((R : ℝ) - 1))) + ε

/-- The sum of the products of the deviations is the sum of the products minus \`n\` times the product of
    the means. -/
theorem real_cross {R : ℕ} (hR : 0 < R) (f g : Fin R → ℝ) :
    ∑ b, (f b - mean f) * (g b - mean g) = (∑ b, f b * g b) - (R : ℝ) * mean f * mean g := by
  have hn : (R : ℝ) ≠ 0 := by exact_mod_cast hR.ne'
  have hsf : (∑ b, f b) = (R : ℝ) * mean f := by unfold mean; field_simp
  have hsg : (∑ b, g b) = (R : ℝ) * mean g := by unfold mean; field_simp
  have hexp : ∀ b, (f b - mean f) * (g b - mean g)
      = f b * g b - mean g * f b - mean f * g b + mean f * mean g := fun b => by ring
  simp only [hexp]
  rw [Finset.sum_add_distrib, Finset.sum_sub_distrib, Finset.sum_sub_distrib, ← Finset.mul_sum,
    ← Finset.mul_sum, hsf, hsg, Finset.sum_const, Finset.card_univ, Fintype.card_fin, nsmul_eq_mul]
  ring

theorem dev2_eq {R : ℕ} (hR : 0 < R) (f : Fin R → ℝ) :
    dev2 f = (∑ b, f b * f b) - (R : ℝ) * mean f * mean f :=
  real_cross hR f f

theorem dev2_nonneg {R : ℕ} (f : Fin R → ℝ) : 0 ≤ dev2 f :=
  Finset.sum_nonneg fun b _ => mul_self_nonneg _

theorem den_pos {R : ℕ} {ε : ℝ} (hε : 0 < ε) (f : Fin R → ℝ) : 0 < den ε f :=
  add_pos_of_nonneg_of_pos (Real.sqrt_nonneg _) hε

/-! ### The coercion -/

/-- The coercion \`ℝ → EReal\` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean of a column of real entries, over the extended reals. -/
theorem div_sum_coe {R : ℕ} (hR : 0 < R) (f : Fin R → ℝ) :
    Ideal.div (∑ b, (f b : EReal)) ((R : ℝ) : EReal) = (mean f : EReal) := by
  have hn : (R : ℝ) ≠ 0 := by exact_mod_cast hR.ne'
  rw [Ideal.div_coe hn, ← coe_sum, ← EReal.coe_mul]
  rfl

/-- The square root of a nonnegative real, plus a real. -/
theorem sqrt_coe_add {v : ℝ} (hv : 0 ≤ v) (ε : ℝ) :
    Ideal.sqrt (v : EReal) + (ε : EReal) = ((Real.sqrt v + ε : ℝ) : EReal) := by
  rw [Ideal.sqrt_coe, if_neg (not_lt.2 hv), ← EReal.coe_add]

/-- The divisor from the centered column. -/
theorem den_centered {R : ℕ} (hR : 2 ≤ R) (ε : ℝ) (f : Fin R → ℝ) :
    Ideal.sqrt (Ideal.div (∑ b, ((f b : EReal) - (mean f : EReal)) * ((f b : EReal) - (mean f : EReal)))
        (((R : ℝ) - 1 : ℝ) : EReal)) + (ε : EReal) = (den ε f : EReal) := by
  have h2 : (2 : ℝ) ≤ (R : ℝ) := by exact_mod_cast hR
  have hnm1 : (R : ℝ) - 1 ≠ 0 := by linarith
  have hpos : 0 ≤ 1 / ((R : ℝ) - 1) := by
    apply div_nonneg zero_le_one; linarith
  simp only [← EReal.coe_sub, ← EReal.coe_mul, ← coe_sum, Ideal.div_coe hnm1]
  exact sqrt_coe_add (mul_nonneg (dev2_nonneg f) hpos) ε

/-- The divisor from the moments: the clamp at zero is the identity. -/
theorem den_moments {R : ℕ} (hR : 2 ≤ R) (ε : ℝ) (f : Fin R → ℝ) :
    Ideal.sqrt (Ideal.div (max ((∑ b, (f b : EReal) * (f b : EReal))
        - ((R : ℝ) : EReal) * (mean f : EReal) * (mean f : EReal)) 0)
        (((R : ℝ) - 1 : ℝ) : EReal)) + (ε : EReal) = (den ε f : EReal) := by
  have hR0 : 0 < R := by omega
  have h2 : (2 : ℝ) ≤ (R : ℝ) := by exact_mod_cast hR
  have hnm1 : (R : ℝ) - 1 ≠ 0 := by linarith
  have hpos : 0 ≤ 1 / ((R : ℝ) - 1) := by
    apply div_nonneg zero_le_one; linarith
  simp only [← EReal.coe_sub, ← EReal.coe_mul, ← coe_sum, Ideal.div_coe hnm1]
  rw [← dev2_eq hR0 f, max_eq_left (EReal.coe_nonneg.2 (dev2_nonneg f)), ← EReal.coe_mul]
  exact sqrt_coe_add (mul_nonneg (dev2_nonneg f) hpos) ε

/-! ### The correlation -/

/-- Over the reals: dividing each deviation by its column's divisor and averaging the products is the
    covariance divided by the product of the divisors. -/
theorem real_corr {R : ℕ} (hR : 0 < R) {ε : ℝ} (hε : 0 < ε) (f g : Fin R → ℝ) :
    ((∑ b, f b * g b) - (R : ℝ) * mean f * mean g) * (1 / (R : ℝ)) * (1 / (den ε f * den ε g))
      = (∑ b, (f b - mean f) * (1 / den ε f) * ((g b - mean g) * (1 / den ε g))) * (1 / (R : ℝ)) := by
  have hdf : den ε f ≠ 0 := (den_pos hε f).ne'
  have hdg : den ε g ≠ 0 := (den_pos hε g).ne'
  have hterm : ∀ b, (f b - mean f) * (1 / den ε f) * ((g b - mean g) * (1 / den ε g))
      = (f b - mean f) * (g b - mean g) * (1 / (den ε f * den ε g)) := fun b => by
    field_simp
  simp only [hterm]
  rw [← Finset.sum_mul, real_cross hR f g]
  ring

theorem corr_eq {R : ℕ} (hR : 2 ≤ R) (n nm1 zero eps : EReal) (εr : ℝ)
    (hn : n = ((R : ℝ) : EReal)) (hnm1 : nm1 = (((R : ℝ) - 1 : ℝ) : EReal)) (hzero : zero = 0)
    (heps : eps = (εr : EReal)) (hε : 0 < εr)
    (e t : Fin R → EReal) (he : ∀ b, ∃ r : ℝ, e b = (r : EReal)) (ht : ∀ b, ∃ r : ℝ, t b = (r : EReal)) :
    corrMoments n nm1 zero eps (∑ b, e b) (∑ b, e b * e b) (∑ b, t b) (∑ b, t b * t b) (∑ b, e b * t b)
      = corrCentered n nm1 eps e t := by
  subst hn hnm1 hzero heps
  choose f hf using he
  choose g hg using ht
  have hR0 : 0 < R := by omega
  have hn : (R : ℝ) ≠ 0 := by exact_mod_cast hR0.ne'
  have hdf : den εr f ≠ 0 := (den_pos hε f).ne'
  have hdg : den εr g ≠ 0 := (den_pos hε g).ne'
  have hdfg : den εr f * den εr g ≠ 0 := mul_ne_zero hdf hdg
  unfold corrMoments corrCentered normalized
  simp only [hf, hg, div_sum_coe hR0]
  rw [den_moments hR εr f, den_moments hR εr g]
  simp only [den_centered hR εr]
  simp only [← EReal.coe_sub, ← EReal.coe_mul, ← coe_sum, Ideal.div_coe hn, Ideal.div_coe hdf,
    Ideal.div_coe hdg, Ideal.div_coe hdfg]
  exact congrArg Real.toEReal (real_corr hR0 hε f g)

/-! ### The loss -/

theorem loss_eq {R C : ℕ} (hR : 2 ≤ R) (n nm1 zero one eps : EReal) (εr : ℝ)
    (hn : n = ((R : ℝ) : EReal)) (hnm1 : nm1 = (((R : ℝ) - 1 : ℝ) : EReal)) (hzero : zero = 0)
    (heps : eps = (εr : EReal)) (hε : 0 < εr)
    (e t : (⟨2, ![R, C]⟩ : Idealize.ShloMosaic.Shape).Idx → EReal)
    (he : ∀ i, ∃ r : ℝ, e i = (r : EReal)) (ht : ∀ i, ∃ r : ℝ, t i = (r : EReal)) :
    lossMoments n nm1 zero one eps e t = lossCentered n nm1 zero one eps e t := by
  unfold lossMoments lossCentered
  congr 1
  funext j
  exact corr_eq hR n nm1 zero eps εr hn hnm1 hzero heps hε (col e j) (col t j)
    (fun b => he _) (fun b => ht _)

end Cert.Barlow

end
-- ==== Proof.Finite.lean ====
/-
  From the stated precondition to real-valuedness of both inputs.

  The precondition says, for each of the two input arrays, that every entry x satisfies |x| < +∞, where
  |x| = max x (-x) and +∞ is what the pattern 0x7F800000 denotes (sign 0, exponent all ones, significand 0):
  the comparisons are taken entry by entry, folded by "and" over both axes from the constant true, and the two
  folds are joined by "and"; the result is required to be true. A fold by "and" that is true met only true
  entries, so every entry of either array has |x| < ⊤ over the extended reals. An extended real is ⊥, ⊤ or
  (the image of) a real number; |⊥| = |⊤| = ⊤ is not below ⊤, so every entry is a real number.
-/
import proofs.«104294_j30288109372144_2_alg».proof.Pre_finite_inputs
import proofs.«104294_j30288109372144_2_alg».proof.Proof.Gen.Pre_finite_inputs
import Idealize.ShloMosaic.Lib.ReduceAll
import Idealize.ShloMosaic.Lib.ValueIdx
import Idealize.ShloMosaic.PureOps.Ideal

noncomputable section

namespace Cert.Barlow

open Idealize.ShloMosaic

/-- The rank-0 shape has one index. -/
instance subsingleton_scalar_idx : Subsingleton Cert.Pre_finite_inputs.S_.Idx :=
  ⟨fun a b => funext fun d => d.elim0⟩

/-- The pattern of \`+∞\` denotes \`⊤\`. -/
theorem ofBits_inf : Ideal.ofBits .f32 0x7F800000#32 = ⊤ := by
  simp [Ideal.ofBits, Ideal.ieee]

/-- An extended real whose absolute value compares below \`+∞\` is a real number. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- Every entry of an array whose "all |x| < +∞" fold is true is a real number. -/
theorem real_of_all [Cert.Pre_finite_inputs.Facts]
    (x : FVec Ideal Cert.Pre_finite_inputs.S65536x512 .f32) (init : IVec Cert.Pre_finite_inputs.S_ 1)
    (h : Host.reduce IntOp.andi
        (cmpf .olt (Host.absf x)
          (broadcastInDim Cert.Pre_finite_inputs.S65536x512 ![] Cert.Pre_finite_inputs.Facts.bcast_S_S65536x512
            (constant Cert.Pre_finite_inputs.S_ .f32 0x7F800000#32)))
        init Cert.Pre_finite_inputs.Facts.reducesTo_S65536x512_S_d0_1 Cert.Pre_finite_inputs.Facts.h_S_
        ValueIdx.ix0 = 1#1)
    (i : Cert.Pre_finite_inputs.S65536x512.Idx) : ∃ r : ℝ, x i = (r : EReal) :=
  real_of_abs_lt_inf (x i) (Host.reduce_andi_all _ _ _ _ _ h i)

theorem real_of_pre [Cert.Pre_finite_inputs.Facts]
    (e t : FVec Ideal Cert.Pre_finite_inputs.S65536x512 .f32)
    (h : Cert.Pre_finite_inputs.fn (F := Ideal) e t = fun _ => 1#1) :
    (∀ i, ∃ r : ℝ, e i = (r : EReal)) ∧ (∀ i, ∃ r : ℝ, t i = (r : EReal)) := by
  have h0 := congrFun h ValueIdx.ix0
  dsimp only [Cert.Pre_finite_inputs.fn] at h0
  obtain ⟨h1, h2⟩ := IntOp.andi_eq_one.1 h0
  exact ⟨fun i => real_of_all e _ h1 i, fun i => real_of_all t _ h2 i⟩

end Cert.Barlow

end
-- ==== Proof.Bridge.lean ====
/-
  The kernel's result is the reference's. The kernel's output array holds, per half, the five statistics'
  column sums; the later lines add the halves — a column's 65536 terms as two halves of 32768 — and form the
  loss from moments. On real-valued (finite) inputs the loss from moments is the loss from centered,
  normalized columns, which is what the reference computes; both programs' divisor n - 1 is the real 65535.
-/
import proofs.«104294_j30288109372144_2_alg».proof.Proof.KValueB
import proofs.«104294_j30288109372144_2_alg».proof.Proof.KTailAt
import proofs.«104294_j30288109372144_2_alg».proof.Proof.RefRead
import proofs.«104294_j30288109372144_2_alg».proof.Proof.Algebra
import proofs.«104294_j30288109372144_2_alg».proof.Proof.Consts
import proofs.«104294_j30288109372144_2_alg».proof.Proof.Finite
import proofs.«104294_j30288109372144_2_alg».proof.Proof.Blocks
import proofs.«104294_j30288109372144_2_alg».proof.Proof.Stat
import proofs.«104294_j30288109372144_2_alg».proof.Proof.Spec

noncomputable section

namespace Cert.KernelIdeal.HandValue

open Cert.KernelIdeal Cert.KernelIdeal.Gen Cert.KernelIdeal.Hand Cert.Barlow
open Idealize.ShloMosaic Idealize.ShloMosaic.TcCoe Idealize.SL.Sem Idealize.ShloMosaic.ValueIdx

variable (m : (ℓ : Loc nD τ sig) → Buf (Elt Ideal) ℓ)

/-- A column's sum of statistic k over the whole batch, from the two halves the output array holds. -/
theorem moment_sum (c : Dev nD) (k : Fin 5) (q : Fin 512) :
    (0 : EReal) + ∑ p : Fin 2, halves m c (ix3 p k q)
      = ∑ b : Fin 65536, stat k ((V m c main_arg0 : S65536x512.Idx → EReal) (ix2 b q)) ((V m c main_arg1 : S65536x512.Idx → EReal) (ix2 b q)) := by
  simp only [halves_apply]
  exact column_of_halves_fin2 (fun b : Fin 65536 =>
    stat k ((V m c main_arg0 : S65536x512.Idx → EReal) (ix2 b q)) ((V m c main_arg1 : S65536x512.Idx → EReal) (ix2 b q)))

/-- On finite inputs the kernel's result is the loss from centered, normalized columns of its two arguments,
    with the reference's spelling of the divisor n - 1. -/
theorem kernel_value (c : Dev nD)
    (hpre : Cert.Pre_finite_inputs.fn (F := Ideal) (m ((c.tc : Thread nD τ).loc main_arg0)) (m ((c.tc : Thread nD τ).loc main_arg1)) = fun _ => 1#1) :
    tailFn (F := Ideal) (halves m c)
      = fun _ => lossCentered (R := 65536) (C := 512) (Ideal.ofBits .f32 0x47800000#32) Cert.ReferenceIdeal.RefValue.nm1 0
          (Ideal.ofBits .f32 0x3F800000#32) (Ideal.ofBits .f32 0x3089705F#32)
          (m ((c.tc : Thread nD τ).loc main_arg0)) (m ((c.tc : Thread nD τ).loc main_arg1)) := by
  obtain ⟨he, ht⟩ := real_of_pre _ _ hpre
  obtain ⟨εr, hε, heps⟩ := ofBits_eps
  rw [tailFn_eq]
  funext _
  simp only [moment_sum]
  have hn : Ideal.ofBits .f32 0x47800000#32 = (((65536 : ℕ) : ℝ) : EReal) := by rw [ofBits_n]; norm_num
  have hnm1 : Ideal.ofBits .f32 0x47800000#32 - Ideal.ofBits .f32 0x3F800000#32 = ((((65536 : ℕ) : ℝ) - 1 : ℝ) : EReal) := by
    rw [ofBits_n, ofBits_one, ← EReal.coe_sub]; norm_num
  have hR : Cert.ReferenceIdeal.RefValue.nm1 = Ideal.ofBits .f32 0x47800000#32 - Ideal.ofBits .f32 0x3F800000#32 := by
    rw [Cert.ReferenceIdeal.RefValue.nm1_eq, ofBits_n, ofBits_one, ← EReal.coe_sub]
  rw [hR]
  exact loss_eq (R := 65536) (C := 512) (by norm_num) _ _ 0 _ _ εr hn hnm1 rfl heps hε
    (m ((c.tc : Thread nD τ).loc main_arg0)) (m ((c.tc : Thread nD τ).loc main_arg1)) he ht

end Cert.KernelIdeal.HandValue

end
-- ==== Proof.lean ====
/-
  The certificate of the diagonal Barlow-twins loss kernel against its jnp reference.

  The kernel streams the two [65536, 512] inputs once: a 2 × 8 grid of 4096-row blocks, each block read in four
  1024-row slabs, accumulating per feature the five column sums ∑e, ∑e², ∑t, ∑t², ∑e·t into a per-half output
  block that is reset at the first point of a half and written back after the last; host lines then add the two
  halves and form, per feature, the correlation from moments and the loss ∑ (1 - correlation)². The reference
  centers each column, divides by (√(centered variance) + ε), multiplies, averages and forms the same loss.

  Frames: each kernel program runs to the end without fault and leaves its arguments unchanged (the body's two
  cases run symbolically, the launch by the library's theorem for a region followed by host lines); the reference
  is host operations only. The ideal pass rewrote nothing, so there is nothing to preserve. Equality of results
  at the ideal instance: the output array ends at the per-half sums (induction over the points of a half), the
  host lines read at an index give the loss from moments of whole-column sums (a column's terms regrouped as
  halves, blocks and slabs: only associativity and commutativity of +), and on FINITE inputs — the precondition
  is used here — moments and centered forms agree: ∑(x - m)² = ∑x² - n·m² ≥ 0 makes the clamp the identity, the
  covariance likewise, and the positive real divisors regroup.
-/
import proofs.«104294_j30288109372144_2_alg».proof.Defs
import proofs.«104294_j30288109372144_2_alg».proof.Proof.Gen.Kernel
import proofs.«104294_j30288109372144_2_alg».proof.Proof.Gen.KernelIdeal
import proofs.«104294_j30288109372144_2_alg».proof.Proof.Gen.ReferenceIdeal
import proofs.«104294_j30288109372144_2_alg».proof.Proof.Gen.Pre_finite_inputs
import proofs.«104294_j30288109372144_2_alg».proof.Proof.BFrame
import proofs.«104294_j30288109372144_2_alg».proof.Proof.KFrame
import proofs.«104294_j30288109372144_2_alg».proof.Proof.Bridge

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Both programs, run from memories agreeing on the two arguments, end with the same loss: the kernel's result
    read back (`HandValue.run`) is, on finite inputs, the reference's (`kernel_value`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.HandValue.tailFn (F := Ideal) (Cert.KernelIdeal.HandValue.halves m c),
    Cert.KernelIdeal.HandValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact (Cert.KernelIdeal.HandValue.kernel_value m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
